-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_arg9 : FVec F S256x256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x256 .f32) (main_arg1 : IVec S2x800000 32) (main_arg2 : FVec F S50000x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg2
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x256 : Shape := ⟨2, ![2000, 256]⟩
abbrev S2000x1 : Shape := ⟨2, ![2000, 1]⟩
abbrev S850000x256 : Shape := ⟨2, ![850000, 256]⟩
abbrev S1x256 : Shape := ⟨2, ![1, 256]⟩

abbrev nBuf : Space → Nat
  | .hbm => 74
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x256, .bf16⟩
  | .hbm, ⟨34, _⟩ => ⟨S256x256, .bf16⟩
  | .hbm, ⟨35, _⟩ => ⟨S50000x256, .bf16⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x256, .bf16⟩
  | .hbm, ⟨45, _⟩ => ⟨S850000x256, .f32⟩
  | .hbm, ⟨46, _⟩ => ⟨S_, .f32⟩
  | .hbm, ⟨47, _⟩ => ⟨S50000x256, .f32⟩
  | .hbm, ⟨48, _⟩ => ⟨S850000x1, .i32⟩
  | .hbm, ⟨49, _⟩ => ⟨S50000x256, .f32⟩
  | .hbm, ⟨50, _⟩ => ⟨S1x256, .f32⟩
  | .hbm, ⟨51, _⟩ => ⟨S256x256, .bf16⟩
  | .hbm, ⟨52, _⟩ => ⟨S50000x256, .bf16⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .bf16⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S256x256, .bf16⟩
  | .hbm, ⟨69, _⟩ => ⟨S256x256, .bf16⟩
  | .hbm, ⟨70, _⟩ => ⟨S1x256, .f32⟩
  | .hbm, ⟨71, _⟩ => ⟨S1x256, .f32⟩
  | .hbm, ⟨72, _⟩ => ⟨S50000x256, .f32⟩
  | .hbm, ⟨73, _⟩ => ⟨S50000x256, .f32⟩
  | .local _ .vmem, ⟨0, _⟩ => ⟨S2000x256, .bf16⟩
  | .local _ .vmem, ⟨1, _⟩ => ⟨S2000x256, .bf16⟩
  | .local _ .vmem, ⟨2, _⟩ => ⟨S256x256, .bf16⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S256x256, .bf16⟩
  | .local _ .vmem, ⟨11, _⟩ => ⟨S2000x1, .f32⟩
  | .local _ .vmem, ⟨12, _⟩ => ⟨S2000x1, .f32⟩
  | .local _ .vmem, ⟨13, _⟩ => ⟨S2000x256, .bf16⟩
  | .local _ .vmem, ⟨14, _⟩ => ⟨S2000x256, .bf16⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S256x256, .bf16⟩
  | .local _ .vmem, ⟨21, _⟩ => ⟨S1x256, .f32⟩
  | .local _ .vmem, ⟨22, _⟩ => ⟨S256x256, .bf16⟩
  | .local _ .vmem, ⟨23, _⟩ => ⟨S1x256, .f32⟩
  | .local _ .vmem, ⟨24, _⟩ => ⟨S2000x1, .f32⟩
  | .local _ .vmem, ⟨25, _⟩ => ⟨S2000x1, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc2_stg9_0 : Ref sig .tc := ⟨.vmem, 28, rfl⟩
abbrev cc2_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc2_sem8_0 : DmaSem sig := 26
abbrev cc2_sem8_1 : DmaSem sig := 27
abbrev cc2_sem9_0 : DmaSem sig := 28
abbrev cc2_sem9_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S850000x1_S850000_n_0_0_1_wf : ScatterDims.WF S50000 S850000x1 S850000 [] [0] [0] 1
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S50000x1.size a
  hwx2_7 : ∀ i : grid2.Coords, EltTy.bits .f32 = 32 ∨ (Rect.block (s := S50000x1) S2000x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S50000x256.size a
  hwx2_8 : ∀ i : grid2.Coords, EltTy.bits .f32 = 32 ∨ (Rect.block (s := S50000x256) S2000x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x256.size a ≤ S50000x256.size a
  hwx2_9 : ∀ i : grid2.Coords, EltTy.bits .f32 = 32 ∨ (Rect.block (s := S50000x256) S2000x256.size (cc2_transform_9 i) (hinb2_9 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_v16) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15) S2000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v49_0) S2000x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v49_1) S2000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x256, .f32⟩
  | .hbm, ⟨84, _⟩ => ⟨S850000x1, .f32⟩
  | .hbm, ⟨85, _⟩ => ⟨S850000x256, .f32⟩
  | .hbm, ⟨86, _⟩ => ⟨S850000x256, .f32⟩
  | .hbm, ⟨87, _⟩ => ⟨S_, .f32⟩
  | .hbm, ⟨88, _⟩ => ⟨S50000x256, .f32⟩
  | .hbm, ⟨89, _⟩ => ⟨S850000x1, .i32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S1x256, .f32⟩
  | .hbm, ⟨96, _⟩ => ⟨S50000x256, .f32⟩
  | .hbm, ⟨97, _⟩ => ⟨S50000x256, .f32⟩
  | .hbm, ⟨98, _⟩ => ⟨S50000x256, .f32⟩
  | .hbm, ⟨99, _⟩ => ⟨S50000x256, .f32⟩
  | .hbm, ⟨100, _⟩ => ⟨S1x256, .f32⟩
  | .hbm, ⟨101, _⟩ => ⟨S50000x256, .f32⟩
  | .hbm, ⟨102, _⟩ => ⟨S50000x256, .f32⟩
  | .hbm, ⟨103, _⟩ => ⟨S50000x256, .f32⟩
  | .hbm, ⟨104, _⟩ => ⟨S50000x256, .f32⟩
  | .hbm, ⟨105, _⟩ => ⟨S_, .f32⟩
  | .hbm, ⟨106, _⟩ => ⟨S50000x256, .f32⟩
  | .hbm, ⟨107, _⟩ => ⟨S50000x256, .f32⟩
  | .hbm, ⟨108, _⟩ => ⟨S_, .f32⟩
  | .hbm, ⟨109, _⟩ => ⟨S50000x256, .f32⟩
  | .hbm, ⟨110, _⟩ => ⟨S50000x256, .f32⟩
  | .hbm, ⟨111, _⟩ => ⟨S50000x256, .f32⟩
  | .hbm, ⟨112, _⟩ => ⟨S_, .f32⟩
  | .hbm, ⟨113, _⟩ => ⟨S50000x256, .f32⟩
  | .hbm, ⟨114, _⟩ => ⟨S50000x256, .f32⟩
  | .hbm, ⟨115, _⟩ => ⟨S50000x256, .f32⟩
  | .hbm, ⟨116, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KernelEnds.lean ====
/-
  The idealized kernel's run with its two results named.

  The program is three pipelined regions among stretches of host operations. Every weakly fair execution from a memory
  with zero counters terminates without a fault; at the end every unscoped buffer holds what the fold of the segments
  leaves there (the boundary contents after the last region). So each result array is that fold read at its buffer, and
  each argument array, which no segment writes, is as launched.
-/
import proofs.«124378_j90486370992781_2_alg».proof.Proof.Gen.KernelIdeal.Frame

set_option maxRecDepth 16384

noncomputable section

namespace Cert.KernelIdeal.Ends

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both result arrays end at the last boundary's contents, the argument arrays as launched. -/
theorem run_ends : θ_run defs (onTc (τ := τ) (main (F := F))) ⟨m, fun _ => 0, ρ⟩ (fun r => ∀ c : Dev nD,
      r.2.mem ((c.tc : Thread nD τ).loc main_v49_0) = W8 m ρ c (Proc.devRef .tc main_v49_0)
      ∧ r.2.mem ((c.tc : Thread nD τ).loc main_v49_1) = W8 m ρ c (Proc.devRef .tc main_v49_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49_0 (by decide)),
       h c _ (mem_uc main_v49_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Ends

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«124378_j90486370992781_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibMatProd.lean ====
/-
  The product of two matrices as a whole matrix on the extended reals, for any extents: entry `(r, g)` of `A · B` is
  the sum over `k` of `A (r, k) · B (k, g)`.  A host program's plain `dot_general` is this matrix, and a kernel body's
  plain matrix product into the zero accumulator is this entry by entry.  Entry `(r, g)` reads row `r` of `A` and column
  `g` of `B` only.
-/
import proofs.«124378_j90486370992781_2_alg».proof.Proof.LibPlainMatmul
import proofs.«124378_j90486370992781_2_alg».proof.Proof.LibPlainDot

noncomputable section

open scoped BigOperators

namespace Cert.LibMatProd

open Idealize.ShloMosaic Idealize.ShloMosaic.ValueIdx

variable {R K N : ℕ}

/-- Entry `(r, g)` of the product. -/
def prodAt (A : (⟨2, ![R, K]⟩ : Shape).Idx → EReal) (B : (⟨2, ![K, N]⟩ : Shape).Idx → EReal) (r : Fin R) (g : Fin N) : EReal :=
  ∑ k : Fin K, A (ix2 r k) * B (ix2 k g)

/-- The product as a whole matrix. -/
def prod (A : (⟨2, ![R, K]⟩ : Shape).Idx → EReal) (B : (⟨2, ![K, N]⟩ : Shape).Idx → EReal) :
    (⟨2, ![R, N]⟩ : Shape).Idx → EReal :=
  fun i => prodAt A B (i 0) (i 1)

theorem prod_apply (A : (⟨2, ![R, K]⟩ : Shape).Idx → EReal) (B : (⟨2, ![K, N]⟩ : Shape).Idx → EReal) (r : Fin R) (g : Fin N) :
    prod A B (ix2 r g) = prodAt A B r g := rfl

/-- The host's plain product is the whole matrix. -/
theorem host_prod_eq (A : FVec Ideal ⟨2, ![R, K]⟩ .f32) (B : FVec Ideal ⟨2, ![K, N]⟩ .f32) :
    Host.dotGeneral (DotDims.plain R K N) none A B = prod A B := by
  funext i
  obtain ⟨r, g, rfl⟩ : ∃ (r : Fin R) (g : Fin N), i = ix2 r g := ⟨i 0, i 1, eq_ix2 i⟩
  exact Cert.LibPlainDot.dotGeneral_apply none A B r g

/-- A kernel body's plain product into the zero accumulator, at an entry. -/
theorem matmul_prodAt {φ₁ φ₂ : FTy} (prec : Option ContractPrecision) (A : FVec Ideal ⟨2, ![R, K]⟩ φ₁)
    (B : FVec Ideal ⟨2, ![K, N]⟩ φ₂) (r : Fin R) (g : Fin N) :
    FloatOps.matmul (DotDims.plain R K N) prec A B (constant ⟨2, ![R, N]⟩ .f32 0x00000000#32) (ix2 r g) = prodAt A B r g :=
  Cert.LibPlainMatmul.matmul_zero_apply prec A B r g

/-- An entry of the product reads one row of the left factor and one column of the right one. -/
theorem prodAt_congr {R' N' : ℕ} (A : (⟨2, ![R, K]⟩ : Shape).Idx → EReal) (B : (⟨2, ![K, N]⟩ : Shape).Idx → EReal)
    (A' : (⟨2, ![R', K]⟩ : Shape).Idx → EReal) (B' : (⟨2, ![K, N']⟩ : Shape).Idx → EReal) (r : Fin R) (g : Fin N)
    (r' : Fin R') (g' : Fin N') (hA : ∀ k : Fin K, A (ix2 r k) = A' (ix2 r' k)) (hB : ∀ k : Fin K, B (ix2 k g) = B' (ix2 k g')) :
    prodAt A B r g = prodAt A' B' r' g' := by
  unfold prodAt
  exact Finset.sum_congr rfl fun k _ => by rw [hA k, hB k]

end Cert.LibMatProd

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.LibSegSum.lean ====
/-
  Three host operations on rows and flat index arrays, read at an entry; general over the extents.

  * A `stablehlo.scatter` with an adding body of float rows into an `[N, D]` operand at a column `[E, 1]` of
    destination indices (update_window_dims `[1]`, inserted_window_dims `[0]`, scatter_dims_to_operand_dims `[0]`,
    index_vector_dim `1`; what a segment sum lowers to), on the extended reals: entry `(n, k)` is the operand's entry
    plus the sum over the updates `e` whose index word read signed is `n` of the update's entry `(e, k)`.
  * A `stablehlo.gather` of single elements of a flat array `[M]` at a column `[E, 1]` of start indices
    (collapsed_slice_dims `[0]`, start_index_map `[0]`, index_vector_dim `1`, slice_sizes `[1]`; what `a[idx]` lowers
    to for flat arrays): entry `e` is the element the index word names, read signed and clamped into `[0, M − 1]`.
  * The second result of a stable sort of a key array carrying the iota of positions (an argsort): a bijection of the
    positions, as words.
-/
import Idealize.ShloMosaic.Lib.ValueIdx
import Idealize.ShloMosaic.Lib.SortFacts
import Idealize.ShloMosaic.PureOps.Ideal.Laws
import proofs.«124378_j90486370992781_2_alg».proof.Proof.LibGatherFlatRows

noncomputable section

namespace Cert.LibSegSum

open Idealize.ShloMosaic Idealize.ShloMosaic.ValueIdx

/-- The scatter's dimension numbers for an operand `[N, D]`, indices `[E, 1]` and updates `[E, D]`. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An axis of a rank-2 shape is its first or its second. -/
private theorem axis_cases (a : Fin 2) : a = 0 ∨ a = 1 := by fin_cases a <;> simp

/-- A 32-bit word of a number below `2 ^ 31` reads that number, signed. -/
private theorem toInt_ofNat_lt {v : Nat} (hv : v < 2 ^ 31) : (BitVec.ofNat 32 v).toInt = (v : Int) := by
  rw [BitVec.toInt_eq_toNat_cond, BitVec.toNat_ofNat]
  have hm : v % 2 ^ 32 = v := Nat.mod_eq_of_lt (by omega)
  rw [hm]
  split <;> omega

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (k' : Fin D)

/-- The window of update `(e, k')` starts, on the row axis, at the index word `idx[e, 0]` read signed … -/
private theorem start_row :
    (rowsDims N D E wf).start (ix2 e k') idx (0 : Fin 2) = (idx (ix2 e (0 : Fin 1))).toInt := by
  unfold ScatterDims.start
  rw [dif_pos (show (0 : Fin 2) ∈ (rowsDims N D E wf).scatterDimsToOperandDims from List.mem_singleton.mpr rfl)]
  have hsi : (rowsDims N D E wf).siIdx (ix2 e k') ⟨List.idxOf (0 : Fin 2) (rowsDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, on the column axis, at `0`. -/
private theorem start_col : (rowsDims N D E wf).start (ix2 e k') idx (1 : Fin 2) = 0 := by
  unfold ScatterDims.start
  rw [dif_neg (show (1 : Fin 2) ∉ (rowsDims N D E wf).scatterDimsToOperandDims from
    fun h => absurd (congrArg Fin.val (List.mem_singleton.mp h)) Nat.one_ne_zero)]

/-- Its window coordinate is `0` on the row axis, an inserted one … -/
private theorem window_row : (rowsDims N D E wf).window (ix2 e k') (0 : Fin 2) = 0 := by
  unfold ScatterDims.window
  rw [dif_neg (show (0 : Fin 2) ∉ (rowsDims N D E wf).sKept from by
    simp [ScatterDims.sKept, Shape.kept])]

/-- … and the update's column on the column axis. -/
private theorem window_col : (rowsDims N D E wf).window (ix2 e k') (1 : Fin 2) = k'.val := by
  have hk : (1 : Fin 2) ∈ (rowsDims N D E wf).sKept := by
    simp [ScatterDims.sKept, Shape.kept]
  unfold ScatterDims.window
  rw [dif_pos hk]
  rfl

/-- Update `(e, k')` lands at `(n, k)` exactly when its index word read signed is `n` and `k' = k`. -/
private theorem resultIdx_rows (n : Fin N) (k : Fin D) :
    (rowsDims N D E wf).resultIdx? (ix2 e k') idx = some (ix2 n k)
      ↔ (idx (ix2 e (0 : Fin 1))).toInt = (n.val : Int) ∧ k' = k := by
  have hs0 := start_row wf idx e k'
  have hs1 := start_col wf idx e k'
  have hw0 := window_row wf e k'
  have hw1 := window_col wf e k'
  unfold ScatterDims.resultIdx?
  split
  · rename_i h
    rw [Option.some.injEq]
    constructor
    · intro hEq
      have h0 := congrArg Fin.val (congrFun hEq (0 : Fin 2))
      have h1 := congrArg Fin.val (congrFun hEq (1 : Fin 2))
      have hb := (h (0 : Fin 2)).1
      simp only [hs0, hw0] at h0 hb
      simp only [hs1, hw1] at h1
      refine ⟨?_, Fin.ext ?_⟩
      · have : ((idx (ix2 e (0 : Fin 1))).toInt + ((0 : Nat) : Int)).toNat = n.val := h0
        omega
      · have : ((0 : Int) + (k'.val : Int)).toNat = k.val := h1
        omega
    · rintro ⟨hn, rfl⟩
      funext a
      refine Fin.ext ?_
      rcases axis_cases a with rfl | rfl
      · show ((rowsDims N D E wf).start (ix2 e k') idx (0 : Fin 2) + ((rowsDims N D E wf).window (ix2 e k') (0 : Fin 2) : Int)).toNat = n.val
        rw [hs0, hw0, hn]; omega
      · show ((rowsDims N D E wf).start (ix2 e k') idx (1 : Fin 2) + ((rowsDims N D E wf).window (ix2 e k') (1 : Fin 2) : Int)).toNat = k'.val
        rw [hs1, hw1]; omega
  · rename_i h
    constructor
    · intro hEq; exact absurd hEq (by simp)
    · rintro ⟨hn, rfl⟩
      refine absurd (fun a => ?_) h
      rcases axis_cases a with rfl | rfl
      · rw [hs0, hw0, hn]
        have := n.isLt
        show (0 : Int) ≤ (n.val : Int) + ((0 : Nat) : Int) ∧ (n.val : Int) + ((0 : Nat) : Int) < ((N : Nat) : Int)
        omega
      · rw [hs1, hw1]
        have := k'.isLt
        show (0 : Int) ≤ (0 : Int) + (k'.val : Int) ∧ (0 : Int) + (k'.val : Int) < ((D : Nat) : Int)
        omega

end Rows

/-- THE ADDING SCATTER OF ROWS AT `(n, k)`, on the extended reals. -/
theorem scatterAdd_rows_apply {N D E w : Nat}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (n : Fin N) (k : Fin D) :
    Host.scatterAdd (rowsDims N D E wf) x idx upd (ix2 n k)
      = x (ix2 n k) + ∑ e : Fin E, if (idx (ix2 e (0 : Fin 1))).toInt = (n.val : Int) then upd (ix2 e k) else 0 := by
  show x (ix2 n k) + ∑ j ∈ Finset.univ.filter (fun j => (rowsDims N D E wf).resultIdx? j idx = some (ix2 n k)), upd j = _
  congr 1
  rw [Finset.sum_filter, sum_idx2]
  refine Finset.sum_congr rfl fun e _ => ?_
  by_cases hn : (idx (ix2 e (0 : Fin 1))).toInt = (n.val : Int)
  · rw [if_pos hn, Finset.sum_eq_single k]
    · exact if_pos ((resultIdx_rows wf idx e k n k).mpr ⟨hn, rfl⟩)
    · intro k' _ hk
      exact if_neg fun h => hk ((resultIdx_rows wf idx e k' n k).mp h).2
    · intro h; exact absurd (Finset.mem_univ k) h
  · rw [if_neg hn]
    exact Finset.sum_eq_zero fun k' _ => if_neg fun h => hn ((resultIdx_rows wf idx e k' n k).mp h).1

/-- The gather's dimension numbers for a flat array `[M]`, indices `[E, 1]` and result `[E]`. -/
abbrev flatDims (M E : Nat) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the element the start index `idx[e, 0]` names. -/
theorem gather_flat_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatDims M E wf) x idx (ix1 e)
      = x (ix1 (Cert.LibGatherFlatRows.rowOf M hM (idx (ix2 e (0 : Fin 1))))) := by
  unfold Host.gather
  congr 1
  funext a
  obtain rfl : a = 0 := Subsingleton.elim _ _
  refine Fin.ext ?_
  show (flatDims M E wf).start (ix1 e) idx 0 + (flatDims M E wf).batchCoord (ix1 e) 0
      + (flatDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims M E wf).startIndexMap from List.mem_singleton.mpr rfl)]
  have hsi : (flatDims M E wf).siIdx (ix1 e) ⟨List.idxOf (0 : Fin 1) (flatDims M E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On a rank-1 shape the second result of a two-operand stable sort along the one axis reads its operand through
    ONE self-map of the positions: the stable sorting permutation of the comparator on the pairs of words. -/
private theorem sort2_snd_rank1 {α β : Type} {E : Nat} (cmp : α × β → α × β → BitVec 1)
    (x : (⟨1, ![E]⟩ : Shape).Idx → α) (y : (⟨1, ![E]⟩ : Shape).Idx → β) (j : (⟨1, ![E]⟩ : Shape).Idx) :
    (Host.sort2 ⟨1, ![E]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- AN ARGSORT IS A BIJECTION OF THE POSITIONS: the second result of the stable sort, along its one axis, of any key
    array `x` paired with the iota of positions is `e ↦ the word of σ e` for a bijection `σ` of `Fin E`. -/
theorem sort2_iota_bijective {α : Type} {E : Nat} (cmp : α × BitVec 32 → α × BitVec 32 → BitVec 1)
    (x : (⟨1, ![E]⟩ : Shape).Idx → α) :
    ∃ σ : Fin E → Fin E, Function.Bijective σ ∧
      ∀ e : Fin E, (Host.sort2 ⟨1, ![E]⟩ 0 cmp x (iotaInDim ⟨1, ![E]⟩ 32 (0 : Fin 1))).2 (ix1 e)
        = BitVec.ofNat 32 (σ e).val := by
  refine ⟨sortedFrom (fun k k' => cmp (x (Shape.Idx.ofFin k), iotaInDim ⟨1, ![E]⟩ 32 (0 : Fin 1) (Shape.Idx.ofFin k))
      (x (Shape.Idx.ofFin k'), iotaInDim ⟨1, ![E]⟩ 32 (0 : Fin 1) (Shape.Idx.ofFin k')) == 1#1),
    ⟨sortedFrom_injective _, sortedFrom_surjective _⟩, fun e => ?_⟩
  rw [sort2_snd_rank1]
  rfl

/-- The word of a position below `2 ^ 31` is not negative read signed … -/
theorem not_slt_zero_ofNat {v : Nat} (hv : v < 2 ^ 31) : IntOp.cmpi .slt (BitVec.ofNat 32 v) 0#32 = 0#1 := by
  have h : (BitVec.ofNat 32 v).slt 0#32 = false := by
    rw [Bool.eq_false_iff, ne_eq, BitVec.slt_iff_toInt_lt, toInt_ofNat_lt hv]
    simp
  show BitVec.ofBool ((BitVec.ofNat 32 v).slt 0#32) = 0#1
  rw [h]
  rfl

/-- … and names that position: read signed and clamped into `[0, M − 1]` it is `v` when `v < M`. -/
theorem rowOf_ofNat {M v : Nat} (hM : 0 < M) (hv : v < M) (hM31 : M ≤ 2 ^ 31) :
    Cert.LibGatherFlatRows.rowOf M hM (BitVec.ofNat 32 v) = ⟨v, hv⟩ := by
  refine Fin.ext ?_
  show min (BitVec.ofNat 32 v).toInt.toNat (M - 1) = v
  rw [toInt_ofNat_lt (lt_of_lt_of_le hv hM31), Int.toNat_natCast]
  omega

end Cert.LibSegSum

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibGcnAgg.lean ====
/-
  One normalized neighbourhood aggregation of a graph convolution, read at an entry; general over the extents.

  A table `P` of `N` rows and `C` columns is gathered by rows at a column of `E` source indices, each gathered row is
  scaled by its edge's weight, the scaled rows are summed into `N` buckets chosen by a column of `E` destination indices
  (a scatter with an adding body into a start matrix), and a bias vector is added to every row.  On the extended reals
  entry `(n, c)` of the result is the start matrix's entry, plus the sum over the edges `e` whose destination word read
  signed is `n` of `P (row named by e's source word, c) · weight e`, plus `bias c`.  So entry `(n, c)` reads column
  `c` of the table and of the bias, and nothing of the other columns: the aggregation acts on each feature column by itself.
-/
import Idealize.ShloMosaic.Lib.Pipeline.Value
import Idealize.ShloMosaic.Lib.ValueIdx
import Idealize.ShloMosaic.PureOps.Ideal.Laws
import proofs.«124378_j90486370992781_2_alg».proof.Proof.LibGatherFlatRows
import proofs.«124378_j90486370992781_2_alg».proof.Proof.LibSegSum
import proofs.«124378_j90486370992781_2_alg».proof.Proof.LibHostRows

noncomputable section

open scoped BigOperators

namespace Cert.LibGcnAgg

open Idealize.ShloMosaic Idealize.ShloMosaic.ValueIdx

variable {N C E w : ℕ}

/-- Entry `(n, c)` of the aggregation: the start entry, plus the weighted rows of the edges into `n` at column `c`, plus
    the bias at `c`. -/
def aggAt (hN : 0 < N) (x0 P : (⟨2, ![N, C]⟩ : Shape).Idx → EReal) (idxS idxD : IVec ⟨2, ![E, 1]⟩ w)
    (nrm : (⟨1, ![E]⟩ : Shape).Idx → EReal) (bias : (⟨1, ![C]⟩ : Shape).Idx → EReal) (n : Fin N) (c : Fin C) : EReal :=
  (x0 (ix2 n c) + ∑ e : Fin E, if (idxD (ix2 e (0 : Fin 1))).toInt = (n.val : Int)
      then P (ix2 (Cert.LibGatherFlatRows.rowOf N hN (idxS (ix2 e (0 : Fin 1)))) c) * nrm (ix1 e) else 0) + bias (ix1 c)

/-- The host's spelling of the aggregation — gather of rows, product with the weights broadcast as a column and then
    along the columns, adding scatter into `x0`, sum with the bias broadcast as a row and then down the rows — read at
    `(n, c)`. -/
theorem host_agg_at (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (x0 P : FVec Ideal ⟨2, ![N, C]⟩ .f32) (idxS idxD : IVec ⟨2, ![E, 1]⟩ w)
    (nrm : FVec Ideal ⟨1, ![E]⟩ .f32) (bias : FVec Ideal ⟨1, ![C]⟩ .f32)
    (d1 : Fin (⟨1, ![E]⟩ : Shape).rank → Fin (⟨2, ![E, 1]⟩ : Shape).rank) (hd1 : d1 0 = 0)
    (h1 : (⟨1, ![E]⟩ : Shape).BroadcastsInDim ⟨2, ![E, 1]⟩ d1)
    (d2 : Fin (⟨2, ![E, 1]⟩ : Shape).rank → Fin (⟨2, ![E, C]⟩ : Shape).rank) (hd20 : d2 0 = 0) (hd21 : d2 1 = 1)
    (h2 : (⟨2, ![E, 1]⟩ : Shape).BroadcastsInDim ⟨2, ![E, C]⟩ d2)
    (d3 : Fin (⟨1, ![C]⟩ : Shape).rank → Fin (⟨2, ![1, C]⟩ : Shape).rank) (hd3 : d3 0 = 1)
    (h3 : (⟨1, ![C]⟩ : Shape).BroadcastsInDim ⟨2, ![1, C]⟩ d3)
    (d4 : Fin (⟨2, ![1, C]⟩ : Shape).rank → Fin (⟨2, ![N, C]⟩ : Shape).rank) (hd40 : d4 0 = 0) (hd41 : d4 1 = 1)
    (h4 : (⟨2, ![1, C]⟩ : Shape).BroadcastsInDim ⟨2, ![N, C]⟩ d4)
    (n : Fin N) (c : Fin C) :
    addf (Host.scatterAdd (Cert.LibSegSum.rowsDims N C E wfS) x0 idxD
        (mulf (Host.gather (Cert.LibGatherFlatRows.rowDims N C E wfG) P idxS)
          (broadcastInDim ⟨2, ![E, C]⟩ d2 h2 (broadcastInDim ⟨2, ![E, 1]⟩ d1 h1 nrm))))
      (broadcastInDim ⟨2, ![N, C]⟩ d4 h4 (broadcastInDim ⟨2, ![1, C]⟩ d3 h3 bias)) (ix2 n c)
      = aggAt hN x0 P idxS idxD nrm bias n c := by
  rw [addf_apply, Cert.LibSegSum.scatterAdd_rows_apply, Cert.LibHostRows.bcast_1b_ab_at d4 hd40 hd41 h4,
    Cert.LibHostRows.bcast_b_1b_at d3 hd3 h3]
  unfold aggAt
  refine congrArg (· + bias (ix1 c)) (congrArg (x0 (ix2 n c) + ·) (Finset.sum_congr rfl fun e _ => ?_))
  rw [mulf_apply, Cert.LibGatherFlatRows.gather_rows_apply hN wfG, Cert.LibHostRows.bcast_a1_ab_at d2 hd20 hd21 h2,
    Cert.LibHostRows.bcast_a_a1_at d1 hd1 h1]

/-- Entry `(n, c)` of one aggregation and entry `(n, c')` of another with the same index columns and weights agree
    when the start matrices agree there, the tables agree on those two columns row by row, and the biases agree at them. -/
theorem aggAt_congr {C' : ℕ} (hN : 0 < N) (x0 P : (⟨2, ![N, C]⟩ : Shape).Idx → EReal)
    (x0' P' : (⟨2, ![N, C']⟩ : Shape).Idx → EReal) (idxS idxD : IVec ⟨2, ![E, 1]⟩ w)
    (nrm : (⟨1, ![E]⟩ : Shape).Idx → EReal) (bias : (⟨1, ![C]⟩ : Shape).Idx → EReal)
    (bias' : (⟨1, ![C']⟩ : Shape).Idx → EReal) (n : Fin N) (c : Fin C) (c' : Fin C')
    (hx : x0 (ix2 n c) = x0' (ix2 n c')) (hP : ∀ r : Fin N, P (ix2 r c) = P' (ix2 r c'))
    (hb : bias (ix1 c) = bias' (ix1 c')) :
    aggAt hN x0 P idxS idxD nrm bias n c = aggAt hN x0' P' idxS idxD nrm bias' n c' := by
  unfold aggAt
  rw [hx, hb]
  refine congrArg (· + bias' (ix1 c')) (congrArg (x0' (ix2 n c') + ·) (Finset.sum_congr rfl fun e _ => ?_))
  rw [hP]

end Cert.LibGcnAgg

end
-- ==== Proof.LibGcnLaw.lean ====
/-
  The algebra that joins the two spellings of a normalized graph convolution, on the extended reals.

  A neighbourhood sum whose every term carries the destination node's scale factor equals the sum of the
  terms without it, scaled once: a non-negative finite factor distributes over a finite sum of extended reals,
  whatever the summands are. The destination's factor is the inverse square root of a positive number (or zero
  where the node has no degree), so it is such a factor.
-/
import Idealize.ShloMosaic.PureOps.Ideal
import Idealize.ShloMosaic.PureOps.Ideal.Laws
import Mathlib.Algebra.BigOperators.Fin

noncomputable section

open scoped BigOperators

namespace Cert.LibGcnLaw

open Idealize.ShloMosaic

/-- A non-negative factor other than +∞ distributes over a finite sum of extended reals. -/
theorem sum_mul_of_nonneg {ι : Type} (s : Finset ι) (f : ι → EReal) (d : EReal) (h0 : 0 ≤ d) (ht : d ≠ ⊤) :
    (∑ i ∈ s, f i) * d = ∑ i ∈ s, f i * d := by
  classical
  induction s using Finset.induction_on with
  | empty => simp
  | insert a s ha ih =>
    rw [Finset.sum_insert ha, Finset.sum_insert ha, ← ih, EReal.right_distrib_of_nonneg_of_ne_top h0 ht]

/-- The neighbourhood sum with the destination's factor inside every term is the sum without it, scaled once. The
    terms of edges that do not land on the node are zero on both sides. -/
theorem agg_scale {ι : Type} [Fintype ι] (land : ι → Prop) [DecidablePred land] (P s : ι → EReal) (d z b : EReal)
    (hz : z = 0) (h0 : 0 ≤ d) (ht : d ≠ ⊤) :
    (z + ∑ e : ι, if land e then P e * (s e * d) else 0) + b
      = (z + ∑ e : ι, if land e then P e * s e else 0) * d + b := by
  subst hz
  rw [zero_add, zero_add, sum_mul_of_nonneg _ _ d h0 ht]
  refine congrArg (· + b) (Finset.sum_congr rfl fun e _ => ?_)
  by_cases h : land e
  · rw [if_pos h, if_pos h, mul_assoc]
  · rw [if_neg h, if_neg h, zero_mul]

/-- The inverse square root of a positive extended real is non-negative and finite: it is zero at +∞ and the
    reciprocal of a positive real's root otherwise. -/
theorem rsqrt_good (y : EReal) (hy : 0 < y) : 0 ≤ Ideal.rsqrt y ∧ Ideal.rsqrt y ≠ ⊤ := by
  induction y using EReal.rec with
  | bot => exact absurd hy (by simp)
  | top => exact ⟨by simp, by simp⟩
  | coe r =>
    have hr : 0 < r := by exact_mod_cast hy
    rw [Ideal.rsqrt_coe, if_neg (not_lt.mpr hr.le), if_neg hr.ne']
    exact ⟨by exact_mod_cast (inv_nonneg.mpr (Real.sqrt_nonneg r)), EReal.coe_ne_top _⟩

/-- The normalization factor of a node, the inverse square root of its degree kept away from zero where the degree
    is positive and zero elsewhere, is non-negative and finite whatever the degree and the floor are. -/
theorem dinv_good (deg eps z z' : EReal) (hz : z = 0) (hz' : z' = 0) :
    0 ≤ Scalar.select (Ideal.cmp .ogt deg z) (Ideal.rsqrt (max deg eps)) z'
      ∧ Scalar.select (Ideal.cmp .ogt deg z) (Ideal.rsqrt (max deg eps)) z' ≠ ⊤ := by
  subst hz hz'
  unfold Scalar.select Ideal.cmp
  by_cases h : (0 : EReal) < deg
  · have : BitVec.ofBool (decide ((0 : EReal) < deg)) = 1 := by simp [h]
    rw [if_pos this]
    exact rsqrt_good _ (lt_of_lt_of_le h (le_max_left _ _))
  · have : ¬ BitVec.ofBool (decide ((0 : EReal) < deg)) = 1 := by simp [h]
    rw [if_neg this]
    exact ⟨le_refl _, EReal.zero_ne_top⟩

end Cert.LibGcnLaw

end
-- ==== Proof.LibGcnPrescale.lean ====
/-
  One graph-convolution layer in its two arrangements, entry by entry, for any extents.

  The reference weighs every edge's message by the product of its two endpoints' factors and sums the messages
  into the destination's bucket. The kernel scales every node's row by the node's factor once before the messages
  are gathered, sums the gathered rows unweighted, and scales the bucket by the destination's factor once after.
  For an edge that lands on node `n` the destination's factor is `n`'s, a non-negative finite number, so it comes
  out of the sum; the two arrangements agree at every entry.
-/
import proofs.«124378_j90486370992781_2_alg».proof.Proof.LibGcnAgg
import proofs.«124378_j90486370992781_2_alg».proof.Proof.LibGcnLaw

noncomputable section

open scoped BigOperators

namespace Cert.LibGcnPrescale

open Idealize.ShloMosaic Idealize.ShloMosaic.ValueIdx Cert.LibGatherFlatRows

variable {N C E w : ℕ}

/-- The weighted aggregation of a table `P` equals the unweighted aggregation of the pre-scaled table `T`, scaled
    by the destination's factor, when every edge's weight is the product of its endpoints' factors. -/
theorem layer_law (hN : 0 < N) (z P T : (⟨2, ![N, C]⟩ : Shape).Idx → EReal) (idxS idxD : IVec ⟨2, ![E, 1]⟩ w)
    (nrm : (⟨1, ![E]⟩ : Shape).Idx → EReal) (bias : (⟨1, ![C]⟩ : Shape).Idx → EReal) (Dv : Fin N → EReal)
    (hz : ∀ i, z i = 0) (hT : ∀ (r : Fin N) (c : Fin C), T (ix2 r c) = P (ix2 r c) * Dv r)
    (hD : ∀ r, 0 ≤ Dv r ∧ Dv r ≠ ⊤)
    (hn : ∀ (e : Fin E) (n : Fin N), (idxD (ix2 e (0 : Fin 1))).toInt = (n.val : Int) →
      nrm (ix1 e) = Dv (rowOf N hN (idxS (ix2 e (0 : Fin 1)))) * Dv n)
    (n : Fin N) (c : Fin C) :
    Cert.LibGcnAgg.aggAt hN z P idxS idxD nrm bias n c
      = (z (ix2 n c) + ∑ e : Fin E, if (idxD (ix2 e (0 : Fin 1))).toInt = (n.val : Int)
          then T (ix2 (rowOf N hN (idxS (ix2 e (0 : Fin 1)))) c) else 0) * Dv n + bias (ix1 c) := by
  unfold Cert.LibGcnAgg.aggAt
  have h1 : (∑ e : Fin E, if (idxD (ix2 e (0 : Fin 1))).toInt = (n.val : Int)
        then P (ix2 (rowOf N hN (idxS (ix2 e (0 : Fin 1)))) c) * nrm (ix1 e) else 0)
      = ∑ e : Fin E, if (idxD (ix2 e (0 : Fin 1))).toInt = (n.val : Int)
        then P (ix2 (rowOf N hN (idxS (ix2 e (0 : Fin 1)))) c) * (Dv (rowOf N hN (idxS (ix2 e (0 : Fin 1)))) * Dv n) else 0 :=
    Finset.sum_congr rfl fun e _ => by
      by_cases h : (idxD (ix2 e (0 : Fin 1))).toInt = (n.val : Int)
      · rw [if_pos h, if_pos h, hn e n h]
      · rw [if_neg h, if_neg h]
  have h2 : (∑ e : Fin E, if (idxD (ix2 e (0 : Fin 1))).toInt = (n.val : Int)
        then T (ix2 (rowOf N hN (idxS (ix2 e (0 : Fin 1)))) c) else 0)
      = ∑ e : Fin E, if (idxD (ix2 e (0 : Fin 1))).toInt = (n.val : Int)
        then P (ix2 (rowOf N hN (idxS (ix2 e (0 : Fin 1)))) c) * Dv (rowOf N hN (idxS (ix2 e (0 : Fin 1)))) else 0 :=
    Finset.sum_congr rfl fun e _ => by rw [hT]
  rw [h1, h2]
  exact Cert.LibGcnLaw.agg_scale (fun e : Fin E => (idxD (ix2 e (0 : Fin 1))).toInt = (n.val : Int))
    (fun e => P (ix2 (rowOf N hN (idxS (ix2 e (0 : Fin 1)))) c)) (fun e => Dv (rowOf N hN (idxS (ix2 e (0 : Fin 1)))))
    (Dv n) (z (ix2 n c)) (bias (ix1 c)) (hz _) (hD n).1 (hD n).2

/-- An index word that reads as the node number `n` is not negative, so adding the node count to negative words
    leaves it alone, and clamped into the node range it names row `n`. -/
theorem row_of_landing (hN : 0 < N) (hN31 : N ≤ 2 ^ 31) (b k : BitVec 32) (n : Fin N) (h : b.toInt = (n.val : Int)) :
    rowOf N hN (Scalar.select (IntOp.cmpi .slt b 0#32) (IntOp.addi b k) b) = n := by
  have hslt : IntOp.cmpi .slt b 0#32 = 0#1 := by
    simp only [IntOp.cmpi]
    have : ¬ b.slt 0#32 = true := by
      rw [BitVec.slt]
      simp only [BitVec.toInt_zero, decide_eq_true_eq, not_lt]
      omega
    simp [this]
  rw [hslt, select_zero]
  apply Fin.ext
  show min b.toInt.toNat (N - 1) = n.val
  have := n.isLt
  omega

end Cert.LibGcnPrescale

end
-- ==== Proof.LibSigmoid.lean ====
/-
  The logistic function on the extended reals in its two spellings, and three small facts that travel with it.

  A kernel's logistic operation is, on the extended reals, 1 / (1 + e⁻ˣ) with the conventions 0 at -∞ and 1 at +∞. A host
  program that spells the sigmoid as a negation, an exponential, a sum with the word of 1.0 and a quotient of that word
  by the sum denotes the same function: the word 0x3F800000 is the number one. Beside it: the logistic function and the
  hyperbolic tangent of a vector read at an entry, and the fact that four terms added to a start value one after the
  other are the start value plus their sum (an accumulator over four unrolled steps against a reduction), in any
  commutative additive monoid.
-/
import Idealize.ShloMosaic.PureOps.Ideal
import Idealize.ShloMosaic.Lib.ValueIdx
import Mathlib.Algebra.BigOperators.Fin

noncomputable section

open scoped BigOperators

namespace Cert.LibSigmoid

open Idealize.ShloMosaic

/-- The word of 1.0 denotes the number one. -/
theorem oneW : Ideal.ofBits .f32 0x3F800000#32 = 1 := by
  simp [Ideal.ofBits, Ideal.ieee, -EReal.coe_mul]; norm_num

/-- The sigmoid spelt with the word of 1.0, a negation, an exponential, a sum and a quotient is the logistic function,
    at every extended real. -/
theorem logistic_spelt (x : EReal) :
    Ideal.div (Ideal.ofBits .f32 0x3F800000#32) (Ideal.ofBits .f32 0x3F800000#32 + Ideal.exp (-x)) = Ideal.logistic x := by
  rw [oneW]; rfl

/-- The logistic function of a vector, at an entry. -/
theorem logistic_at {s : Shape} {φ : FTy} (v : FVec Ideal s φ) (i : s.Idx) : logistic v i = Ideal.logistic (v i) := rfl

/-- The hyperbolic tangent of a vector, at an entry. -/
theorem tanh_at {s : Shape} {φ : FTy} (v : FVec Ideal s φ) (i : s.Idx) : tanh v i = Ideal.tanh (v i) := rfl

/-- Four terms added to a start value one after the other are the start value plus their sum. -/
theorem chain4 {M : Type*} [AddCommMonoid M] (z : M) (t : Fin 4 → M) :
    (((z + t 0) + t 1) + t 2) + t 3 = z + ∑ k : Fin 4, t k := by
  rw [Fin.sum_univ_four]
  simp only [add_assoc]

end Cert.LibSigmoid

end
-- ==== Proof.GcnForms.lean ====
/-
  A two-layer graph convolution with a gated blend, entry by entry on the extended reals, in its two arrangements.

  Nodes are the 50000 rows, features the 256 columns, edges the 850000 entries of a source column and a destination
  column of index words. A node's factor `d r` is the inverse square root of its degree (zero where the degree is not
  positive).

  THE SCALED ARRANGEMENT. A layer's table `x·W` is scaled row by row, `(x·W)(r,c) · d r` (`scaled`); the scaled rows
  of the edges that land on node `n` are summed unweighted (`gatherSumAt`); the bucket is scaled once more and the bias
  added, `d n · bucket(n,c) + b c` (`post`). The first layer rectifies the result before the second product
  (`reluPost`). The second layer's result `h` is blended with the previous embedding by a gate,
  `α · h + (1 − α) · prev` with `α = logistic(((h·Gw + bw) + prev·Gu) + bu)` (`blend`).

  THE WEIGHTED ARRANGEMENT. Every edge carries the weight `d(source) · d(destination)`; a layer is the sum over the
  edges landing on `n` of the unscaled table's row times the weight, plus the bias (the aggregation `aggAt`).

  The two arrangements agree at every entry (`layer_eq`): for an edge landing on `n` the destination's factor is
  `d n`, a non-negative finite number, so it comes out of the sum; no finiteness of the features is used.
-/
import Idealize.ShloMosaic.PureOps.Ideal
import Idealize.ShloMosaic.Lib.ValueIdx
import proofs.«124378_j90486370992781_2_alg».proof.Proof.LibMatProd
import proofs.«124378_j90486370992781_2_alg».proof.Proof.LibGcnPrescale
import proofs.«124378_j90486370992781_2_alg».proof.Proof.LibSigmoid

noncomputable section

open scoped BigOperators

namespace Cert.Gcn

open Idealize.ShloMosaic Idealize.ShloMosaic.ValueIdx Cert.LibMatProd Cert.LibGatherFlatRows

/-- Node-by-feature arrays, square weight matrices, bias rows, factor columns, and the edge columns. -/
abbrev SNC : Shape := ⟨2, ![50000, 256]⟩
abbrev SCC : Shape := ⟨2, ![256, 256]⟩
abbrev S1C : Shape := ⟨2, ![1, 256]⟩
abbrev SN1 : Shape := ⟨2, ![50000, 1]⟩
abbrev SE1 : Shape := ⟨2, ![850000, 1]⟩

theorem hN : 0 < 50000 := by decide

/-! ## The scaled arrangement -/

/-- A table's entry scaled by its row's factor: `(x·W)(r,c) · d r`. -/
def scaledAt (x : SNC.Idx → EReal) (w : SCC.Idx → EReal) (d : SN1.Idx → EReal) (r : Fin 50000) (c : Fin 256) : EReal :=
  prodAt x w r c * d (ix2 r (0 : Fin 1))

def scaled (x : SNC.Idx → EReal) (w : SCC.Idx → EReal) (d : SN1.Idx → EReal) : SNC.Idx → EReal :=
  fun i => scaledAt x w d (i 0) (i 1)

theorem scaled_apply (x : SNC.Idx → EReal) (w : SCC.Idx → EReal) (d : SN1.Idx → EReal) (r : Fin 50000) (c : Fin 256) :
    scaled x w d (ix2 r c) = scaledAt x w d r c := rfl

/-- A bucket scaled by its node's factor, plus the bias: `d n · a(n,c) + b c`. -/
def postAt (a : SNC.Idx → EReal) (b : S1C.Idx → EReal) (d : SN1.Idx → EReal) (r : Fin 50000) (c : Fin 256) : EReal :=
  d (ix2 r (0 : Fin 1)) * a (ix2 r c) + b (ix2 (0 : Fin 1) c)

def post (a : SNC.Idx → EReal) (b : S1C.Idx → EReal) (d : SN1.Idx → EReal) : SNC.Idx → EReal :=
  fun i => postAt a b d (i 0) (i 1)

theorem post_apply (a : SNC.Idx → EReal) (b : S1C.Idx → EReal) (d : SN1.Idx → EReal) (r : Fin 50000) (c : Fin 256) :
    post a b d (ix2 r c) = postAt a b d r c := rfl

/-- The same, rectified against the zero word. -/
def reluPost (a : SNC.Idx → EReal) (b : S1C.Idx → EReal) (d : SN1.Idx → EReal) : SNC.Idx → EReal :=
  fun i => max (postAt a b d (i 0) (i 1)) (Ideal.ofBits .f32 0x00000000#32)

theorem reluPost_apply (a : SNC.Idx → EReal) (b : S1C.Idx → EReal) (d : SN1.Idx → EReal) (r : Fin 50000) (c : Fin 256) :
    reluPost a b d (ix2 r c) = max (postAt a b d r c) (Ideal.ofBits .f32 0x00000000#32) := rfl

/-- The gate at an entry: the logistic of `((h·Gw + bw) + prev·Gu) + bu`. -/
def gateAt (h prev : SNC.Idx → EReal) (gw : SCC.Idx → EReal) (bw : S1C.Idx → EReal) (gu : SCC.Idx → EReal)
    (bu : S1C.Idx → EReal) (r : Fin 50000) (c : Fin 256) : EReal :=
  Ideal.logistic (((prodAt h gw r c + bw (ix2 (0 : Fin 1) c)) + prodAt prev gu r c) + bu (ix2 (0 : Fin 1) c))

/-- The gated blend at an entry: `α · h + (1 − α) · prev`. -/
def blendAt (h prev : SNC.Idx → EReal) (gw : SCC.Idx → EReal) (bw : S1C.Idx → EReal) (gu : SCC.Idx → EReal)
    (bu : S1C.Idx → EReal) (r : Fin 50000) (c : Fin 256) : EReal :=
  gateAt h prev gw bw gu bu r c * h (ix2 r c)
    + (Ideal.ofBits .f32 0x3F800000#32 - gateAt h prev gw bw gu bu r c) * prev (ix2 r c)

def blend (h prev : SNC.Idx → EReal) (gw : SCC.Idx → EReal) (bw : S1C.Idx → EReal) (gu : SCC.Idx → EReal)
    (bu : S1C.Idx → EReal) : SNC.Idx → EReal :=
  fun i => blendAt h prev gw bw gu bu (i 0) (i 1)

theorem blend_apply (h prev : SNC.Idx → EReal) (gw : SCC.Idx → EReal) (bw : S1C.Idx → EReal) (gu : SCC.Idx → EReal)
    (bu : S1C.Idx → EReal) (r : Fin 50000) (c : Fin 256) :
    blend h prev gw bw gu bu (ix2 r c) = blendAt h prev gw bw gu bu r c := rfl

/-- The unweighted sum of a table's rows over the edges that land on node `n`, from the zero word. -/
def gatherSumAt (T : SNC.Idx → EReal) (idxS idxD : IVec SE1 32) (n : Fin 50000) (c : Fin 256) : EReal :=
  Ideal.ofBits .f32 0x00000000#32 + ∑ e : Fin 850000, if (idxD (ix2 e (0 : Fin 1))).toInt = (n.val : Int)
    then T (ix2 (rowOf 50000 hN (idxS (ix2 e (0 : Fin 1)))) c) else 0

def gatherSum (T : SNC.Idx → EReal) (idxS idxD : IVec SE1 32) : SNC.Idx → EReal :=
  fun i => gatherSumAt T idxS idxD (i 0) (i 1)

theorem gatherSum_apply (T : SNC.Idx → EReal) (idxS idxD : IVec SE1 32) (n : Fin 50000) (c : Fin 256) :
    gatherSum T idxS idxD (ix2 n c) = gatherSumAt T idxS idxD n c := rfl

/-! ## The two arrangements of one layer agree -/

/-- One layer: the weighted aggregation of the table `P` from the zero matrix equals the scaled arrangement's
    `d n · (sum of the pre-scaled rows) + bias`, when every landing edge's weight is the product of its endpoints'
    factors and every factor is non-negative and finite. -/
theorem layer_eq (P T : SNC.Idx → EReal) (z : SNC.Idx → EReal) (idxS idxD : IVec SE1 32)
    (nrm : (⟨1, ![850000]⟩ : Shape).Idx → EReal) (bias : (⟨1, ![256]⟩ : Shape).Idx → EReal)
    (brow : S1C.Idx → EReal) (d : SN1.Idx → EReal)
    (hz : ∀ i, z i = Ideal.ofBits .f32 0x00000000#32)
    (hT : ∀ (r : Fin 50000) (c : Fin 256), T (ix2 r c) = P (ix2 r c) * d (ix2 r (0 : Fin 1)))
    (hD : ∀ r : Fin 50000, 0 ≤ d (ix2 r (0 : Fin 1)) ∧ d (ix2 r (0 : Fin 1)) ≠ ⊤)
    (hn : ∀ (e : Fin 850000) (n : Fin 50000), (idxD (ix2 e (0 : Fin 1))).toInt = (n.val : Int) →
      nrm (ix1 e) = d (ix2 (rowOf 50000 hN (idxS (ix2 e (0 : Fin 1)))) (0 : Fin 1)) * d (ix2 n (0 : Fin 1)))
    (hb : ∀ c : Fin 256, brow (ix2 (0 : Fin 1) c) = bias (ix1 c))
    (n : Fin 50000) (c : Fin 256) :
    Cert.LibGcnAgg.aggAt hN z P idxS idxD nrm bias n c = postAt (gatherSum T idxS idxD) brow d n c := by
  rw [Cert.LibGcnPrescale.layer_law hN z P T idxS idxD nrm bias (fun r => d (ix2 r (0 : Fin 1)))
    (fun i => by rw [hz i, Ideal.ofBits_zero_f32]) hT hD hn n c]
  unfold postAt
  rw [gatherSum_apply, hb c, mul_comm]
  unfold gatherSumAt
  rw [hz, Ideal.ofBits_zero_f32]

/-- The node factor `select(deg > 0, rsqrt deg, 0)` is non-negative and finite whatever the degree is. -/
theorem factor_good (deg z z' : EReal) (hz : z = 0) (hz' : z' = 0) :
    0 ≤ Scalar.select (Ideal.cmp .ogt deg z) (Ideal.rsqrt deg) z'
      ∧ Scalar.select (Ideal.cmp .ogt deg z) (Ideal.rsqrt deg) z' ≠ ⊤ := by
  have h := Cert.LibGcnLaw.dinv_good deg deg z z' hz hz'
  rwa [max_self] at h

end Cert.Gcn

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.BlockOps.lean ====
/-
  The kernels' block operations read at an entry, at the ideal instance.

  A product of a 2000×256 block with a 256×256 matrix into the zero accumulator is, at `(p, q)`, the sum over `k` of the
  left operand at `(p, k)` times the right at `(k, q)`; a 2000×1 column repeated along the 256 columns reads the column at
  row `p`; a 1×256 row repeated down the 2000 rows reads the row at column `q`.
-/
import proofs.«124378_j90486370992781_2_alg».proof.Proof.Gen.KernelIdeal
import proofs.«124378_j90486370992781_2_alg».proof.Proof.LibPlainMatmul
import proofs.«124378_j90486370992781_2_alg».proof.Proof.LibKeepdims
import proofs.«124378_j90486370992781_2_alg».proof.Proof.LibBlockLayout
import Idealize.ShloMosaic.PureOps.Ideal
import Idealize.ShloMosaic.Lib.ValueIdx

noncomputable section

open scoped BigOperators

namespace Cert.KernelIdeal.BlockOps

open Cert.KernelIdeal Cert.KernelIdeal.Facts₀ Cert.KernelIdeal.Facts Idealize.ShloMosaic Idealize.ShloMosaic.ValueIdx

theorem mm_at {φ₁ φ₂ : FTy} (A : FVec Ideal S2000x256 φ₁) (B : FVec Ideal S256x256 φ₂) (p : Fin 2000) (q : Fin 256) :
    matmul dot_S2000x256_S256x256_S2000x256_1_0_0_1_n_n none A B (constant S2000x256 .f32 0x00000000#32) (ix2 p q)
      = ∑ k : Fin 256, A (ix2 p k) * B (ix2 k q) :=
  Cert.LibPlainMatmul.matmul_zero_apply none A B p q

theorem bcol_at (d : FVec Ideal S2000x1 .f32) (p : Fin 2000) (q : Fin 256) :
    broadcastTo S2000x256 d broadcasts_S2000x1_S2000x256 (ix2 p q) = d (ix2 p (0 : Fin 1)) :=
  Cert.LibKeepdims.broadcastTo_a1_ab_apply d _ p q

theorem brow_at (b : FVec Ideal S1x256 .f32) (p : Fin 2000) (q : Fin 256) :
    broadcastTo S2000x256 b broadcasts_S1x256_S2000x256 (ix2 p q) = b (ix2 (0 : Fin 1) q) :=
  Cert.LibBlockLayout.rowBroadcast_at b _ p q

end Cert.KernelIdeal.BlockOps

end
-- ==== Proof.Table0.lean ====
/-
  Region 0: the first layer's pre-scaled table.

  The region's grid has 25 points; point `t` reads rows `2000·t … 2000·t + 1999` of the node features and of the
  factor column, the whole weight matrix, and writes the same rows of the result. Entry `(p, q)` of the block it
  writes is `(Σₖ x(p,k) · w(k,q)) · d(p)` of the blocks it read, so the block is the restriction of ONE function of the
  arrays, `scaled x w d`; the 25 blocks cover the array, which therefore ends holding that function.
-/
import proofs.«124378_j90486370992781_2_alg».proof.Proof.Gen.KernelIdeal.Frame
import proofs.«124378_j90486370992781_2_alg».proof.Proof.GcnForms
import proofs.«124378_j90486370992781_2_alg».proof.Proof.BlockOps
import proofs.«124378_j90486370992781_2_alg».proof.Proof.LibSigmoid
import Idealize.ShloMosaic.Lib.Pipeline.Value
import Idealize.ShloMosaic.Lib.ValueIdx

set_option maxRecDepth 16384

noncomputable section

open scoped BigOperators

namespace Cert.KernelIdeal.Table0

open Cert.KernelIdeal Cert.KernelIdeal.Gen Cert.KernelIdeal.BlockOps
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem lt25 (t : Fin cfg0.N) : t.val < 25 := by have h1 := t.isLt; have h2 : cfg0.N = 25 := N_0; omega

/-- Row `p` of point `t`'s block is row `2000·t + p` of the array. -/
def row (t : Fin cfg0.N) (p : Fin 2000) : Fin 50000 := ⟨t.val * 2000 + p.val, by have := lt25 t; have := p.isLt; omega⟩

/-- The body's stored value at an entry: the row of the left block against the column of the right, times the row's factor. -/
theorem pay_at (x0 : Vec Ideal S2000x256 .bf16) (x1 : Vec Ideal S256x256 .bf16) (x2 : Vec Ideal S2000x1 .f32)
    (p : Fin 2000) (q : Fin 256) :
    k0_pay1 (F := Ideal) x0 x1 x2 (ix2 p q)
      = (∑ k : Fin 256, x0 (ix2 p k) * x1 (ix2 k q)) * x2 (ix2 p (0 : Fin 1)) := by
  unfold k0_pay1
  simp only [shapeCast_self, truncf_apply, mulf_apply, mm_at, bcol_at]

theorem idx0 : ∀ t : Fin cfg0.N, win0_0.index t (0 : Fin 2) = t.val ∧ win0_0.index t (1 : Fin 2) = 0 :=
  (by decide +kernel : ∀ t : Fin grid0.N, _)
theorem emb0 (t : Fin cfg0.N) (p : Fin 2000) (k : Fin 256) :
    ((cfg0.win 0).blk t).view.emb (ix2 p k) = ix2 (row t p) k := by
  obtain ⟨e0, e1⟩ := idx0 t
  funext a; apply Fin.ext
  match a with
  | ⟨0, _⟩ => show win0_0.index t (0 : Fin 2) * 2000 + 1 * p.val = t.val * 2000 + p.val; omega
  | ⟨1, _⟩ => show win0_0.index t (1 : Fin 2) * 256 + 1 * k.val = k.val; omega

theorem idx1 : ∀ t : Fin cfg0.N, win0_1.index t (0 : Fin 2) = 0 ∧ win0_1.index t (1 : Fin 2) = 0 :=
  (by decide +kernel : ∀ t : Fin grid0.N, _)
theorem emb1 (t : Fin cfg0.N) (k : Fin 256) (q : Fin 256) :
    ((cfg0.win 1).blk t).view.emb (ix2 k q) = ix2 k q := by
  obtain ⟨e0, e1⟩ := idx1 t
  funext a; apply Fin.ext
  match a with
  | ⟨0, _⟩ => show win0_1.index t (0 : Fin 2) * 256 + 1 * k.val = k.val; omega
  | ⟨1, _⟩ => show win0_1.index t (1 : Fin 2) * 256 + 1 * q.val = q.val; omega

theorem idx2 : ∀ t : Fin cfg0.N, win0_2.index t (0 : Fin 2) = t.val ∧ win0_2.index t (1 : Fin 2) = 0 :=
  (by decide +kernel : ∀ t : Fin grid0.N, _)
theorem emb2 (t : Fin cfg0.N) (p : Fin 2000) (u : Fin 1) :
    ((cfg0.win 2).blk t).view.emb (ix2 p u) = ix2 (row t p) (0 : Fin 1) := by
  obtain ⟨e0, e1⟩ := idx2 t
  funext a; apply Fin.ext
  match a with
  | ⟨0, _⟩ => show win0_2.index t (0 : Fin 2) * 2000 + 1 * p.val = t.val * 2000 + p.val; omega
  | ⟨1, _⟩ => show win0_2.index t (1 : Fin 2) * 1 + 1 * u.val = 0; have := u.isLt; omega

theorem idx3 : ∀ t : Fin cfg0.N, win0_3.index t (0 : Fin 2) = t.val ∧ win0_3.index t (1 : Fin 2) = 0 :=
  (by decide +kernel : ∀ t : Fin grid0.N, _)
theorem emb3 (t : Fin cfg0.N) (p : Fin 2000) (k : Fin 256) :
    ((cfg0.win 3).blk t).view.emb (ix2 p k) = ix2 (row t p) k := by
  obtain ⟨e0, e1⟩ := idx3 t
  funext a; apply Fin.ext
  match a with
  | ⟨0, _⟩ => show win0_3.index t (0 : Fin 2) * 2000 + 1 * p.val = t.val * 2000 + p.val; omega
  | ⟨1, _⟩ => show win0_3.index t (1 : Fin 2) * 256 + 1 * k.val = k.val; omega

/-- The block's entry, over the arrays: the pre-scaled table at the array's row. -/
theorem core (x : S50000x256.Idx → EReal) (w : S256x256.Idx → EReal) (d : S50000x1.Idx → EReal)
    (t : Fin cfg0.N) (p : Fin 2000) (q : Fin 256) :
    (∑ k : Fin 256, x (((cfg0.win 0).blk t).view.emb (ix2 p k)) * w (((cfg0.win 1).blk t).view.emb (ix2 k q)))
        * d (((cfg0.win 2).blk t).view.emb (ix2 p (0 : Fin 1)))
      = Cert.Gcn.scaled x w d (((cfg0.win 3).blk t).view.emb (ix2 p q)) := by
  rw [emb3, emb2]
  show (∑ k : Fin 256, _) * _ = (∑ k : Fin 256, x (ix2 (row t p) k) * w (ix2 k q)) * d (ix2 (row t p) (0 : Fin 1))
  refine congrArg (· * d (ix2 (row t p) (0 : Fin 1))) (Finset.sum_congr rfl fun k _ => ?_)
  rw [emb0, emb1]

/-- What point `t` writes back is block `t` of the pre-scaled table of the arrays the region finds. -/
theorem flushed_eq (c : Dev nD) (t : Fin cfg0.N) :
    (dat0 V c).flushed 3 t = ((cfg0.win 3).blk t).view.read (Elt Ideal)
      (Cert.Gcn.scaled (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S2000x1) hz]
  funext j
  obtain ⟨p, q, rfl⟩ : ∃ (p : Fin 2000) (q : Fin 256), j = ix2 p q := ⟨j 0, j 1, eq_ix2 j⟩
  refine (pay_at (iblk0 V c 0 t) (iblk0 V c 1 t) (iblk0 V c 2 t) p q).trans ?_
  exact core (V c (Pipeline.arrRef spec0 0)) (V c (Pipeline.arrRef spec0 1)) (V c (Pipeline.arrRef spec0 2)) t p q

/-- An index of the array is in point `t`'s block of window 3 iff each coordinate is in the block's range on its axis. -/
theorem mem_blk3 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v18).slice (win0_3.rect t)).set ↔ _
  rw [View.set_slice_whole, Rect.mem_set_unit]
  exact Iff.rfl

/-- Every index of the array is in the block of the point its row falls in. -/
theorem cover3 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_3 _, ?_⟩
  rw [mem_blk3]
  obtain ⟨e0, e1⟩ := idx3 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e1]; omega

/-- The result array after the region: the pre-scaled table of the arrays the region finds. -/
theorem final (c : Dev nD) :
    (dat0 V c).arrAt 3 cfg0.N
      = Cert.Gcn.scaled (V c (Pipeline.arrRef spec0 0)) (V c (Pipeline.arrRef spec0 1)) (V c (Pipeline.arrRef spec0 2)) :=
  (dat0 V c).arrAt_eq_of_cover 3 _ (fun t _ => flushed_eq V c t) cover3

end Cert.KernelIdeal.Table0

end
-- ==== Proof.Table1.lean ====
/-
  Region 1: the first layer's bucket scaled, biased and rectified, then the second layer's pre-scaled table.

  The grid has 25 points; point `t` reads rows `2000·t … 2000·t + 1999` of the bucket array and of the factor column,
  the whole bias row and weight matrix, and writes the same rows of the result. Entry `(p, q)` of the block it writes is
  `(Σₖ max(d(p) · a(p,k) + b(k), 0) · w(k,q)) · d(p)`, so the block is the restriction of ONE function of the arrays,
  `scaled (reluPost a b d) w d`; the 25 blocks cover the array.
-/
import proofs.«124378_j90486370992781_2_alg».proof.Proof.Gen.KernelIdeal.Frame
import proofs.«124378_j90486370992781_2_alg».proof.Proof.GcnForms
import proofs.«124378_j90486370992781_2_alg».proof.Proof.BlockOps
import proofs.«124378_j90486370992781_2_alg».proof.Proof.LibSigmoid
import Idealize.ShloMosaic.Lib.Pipeline.Value
import Idealize.ShloMosaic.Lib.ValueIdx

set_option maxRecDepth 16384

noncomputable section

open scoped BigOperators

namespace Cert.KernelIdeal.Table1

open Cert.KernelIdeal Cert.KernelIdeal.Gen Cert.KernelIdeal.BlockOps
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem lt25 (t : Fin cfg1.N) : t.val < 25 := by have h1 := t.isLt; have h2 : cfg1.N = 25 := N_1; omega

/-- Row `p` of point `t`'s block is row `2000·t + p` of the array. -/
def row (t : Fin cfg1.N) (p : Fin 2000) : Fin 50000 := ⟨t.val * 2000 + p.val, by have := lt25 t; have := p.isLt; omega⟩

/-- The body's stored value at an entry. -/
theorem pay_at (d0 : Vec Ideal S2000x1 .f32) (a : Vec Ideal S2000x256 .f32) (b : Vec Ideal S1x256 .f32)
    (w : Vec Ideal S256x256 .bf16) (d1 : Vec Ideal S2000x1 .f32) (p : Fin 2000) (q : Fin 256) :
    k1_pay1 (F := Ideal) d0 a b w d1 (ix2 p q)
      = (∑ k : Fin 256, max (d0 (ix2 p (0 : Fin 1)) * a (ix2 p k) + b (ix2 (0 : Fin 1) k)) (Ideal.ofBits .f32 0x00000000#32)
          * w (ix2 k q)) * d1 (ix2 p (0 : Fin 1)) := by
  unfold k1_pay1
  simp only [shapeCast_self, truncf_apply, mulf_apply, addf_apply, maximumf_apply, broadcast_apply, mm_at, bcol_at, brow_at]
  rfl

theorem idx0 : ∀ t : Fin cfg1.N, win1_0.index t (0 : Fin 2) = t.val ∧ win1_0.index t (1 : Fin 2) = 0 :=
  (by decide +kernel : ∀ t : Fin grid1.N, _)
theorem emb0 (t : Fin cfg1.N) (p : Fin 2000) (k : Fin 256) :
    ((cfg1.win 0).blk t).view.emb (ix2 p k) = ix2 (row t p) k := by
  obtain ⟨e0, e1⟩ := idx0 t
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega

theorem idx1 : ∀ t : Fin cfg1.N, win1_1.index t (0 : Fin 2) = 0 ∧ win1_1.index t (1 : Fin 2) = 0 :=
  (by decide +kernel : ∀ t : Fin grid1.N, _)
theorem emb1 (t : Fin cfg1.N) (u : Fin 1) (q : Fin 256) :
    ((cfg1.win 1).blk t).view.emb (ix2 u q) = ix2 (0 : Fin 1) q := by
  obtain ⟨e0, e1⟩ := idx1 t
  funext a; apply Fin.ext
  match a with
  | ⟨0, _⟩ => show win1_1.index t (0 : Fin 2) * 1 + 1 * u.val = 0; have := u.isLt; omega
  | ⟨1, _⟩ => show win1_1.index t (1 : Fin 2) * 256 + 1 * q.val = q.val; omega

theorem idx2 : ∀ t : Fin cfg1.N, win1_2.index t (0 : Fin 2) = 0 ∧ win1_2.index t (1 : Fin 2) = 0 :=
  (by decide +kernel : ∀ t : Fin grid1.N, _)
theorem emb2 (t : Fin cfg1.N) (k : Fin 256) (q : Fin 256) :
    ((cfg1.win 2).blk t).view.emb (ix2 k q) = ix2 k q := by
  obtain ⟨e0, e1⟩ := idx2 t
  funext a; apply Fin.ext
  match a with
  | ⟨0, _⟩ => show win1_2.index t (0 : Fin 2) * 256 + 1 * k.val = k.val; omega
  | ⟨1, _⟩ => show win1_2.index t (1 : Fin 2) * 256 + 1 * q.val = q.val; omega

theorem idx3 : ∀ t : Fin cfg1.N, win1_3.index t (0 : Fin 2) = t.val ∧ win1_3.index t (1 : Fin 2) = 0 :=
  (by decide +kernel : ∀ t : Fin grid1.N, _)
theorem emb3 (t : Fin cfg1.N) (p : Fin 2000) (u : Fin 1) :
    ((cfg1.win 3).blk t).view.emb (ix2 p u) = ix2 (row t p) (0 : Fin 1) := by
  obtain ⟨e0, e1⟩ := idx3 t
  funext a; apply Fin.ext
  match a with
  | ⟨0, _⟩ => show win1_3.index t (0 : Fin 2) * 2000 + 1 * p.val = t.val * 2000 + p.val; omega
  | ⟨1, _⟩ => show win1_3.index t (1 : Fin 2) * 1 + 1 * u.val = 0; have := u.isLt; omega

theorem idx4 : ∀ t : Fin cfg1.N, win1_4.index t (0 : Fin 2) = t.val ∧ win1_4.index t (1 : Fin 2) = 0 :=
  (by decide +kernel : ∀ t : Fin grid1.N, _)
theorem emb4 (t : Fin cfg1.N) (p : Fin 2000) (k : Fin 256) :
    ((cfg1.win 4).blk t).view.emb (ix2 p k) = ix2 (row t p) k := by
  obtain ⟨e0, e1⟩ := idx4 t
  funext a; apply Fin.ext
  match a with
  | ⟨0, _⟩ => show win1_4.index t (0 : Fin 2) * 2000 + 1 * p.val = t.val * 2000 + p.val; omega
  | ⟨1, _⟩ => show win1_4.index t (1 : Fin 2) * 256 + 1 * k.val = k.val; omega

/-- The block's entry, over the arrays: the second layer's pre-scaled table at the array's row. -/
theorem core (a : S50000x256.Idx → EReal) (b : S1x256.Idx → EReal) (w : S256x256.Idx → EReal) (d : S50000x1.Idx → EReal)
    (t : Fin cfg1.N) (p : Fin 2000) (q : Fin 256) :
    (∑ k : Fin 256, max (d (((cfg1.win 3).blk t).view.emb (ix2 p (0 : Fin 1))) * a (((cfg1.win 0).blk t).view.emb (ix2 p k))
          + b (((cfg1.win 1).blk t).view.emb (ix2 (0 : Fin 1) k))) (Ideal.ofBits .f32 0x00000000#32)
        * w (((cfg1.win 2).blk t).view.emb (ix2 k q)))
      * d (((cfg1.win 3).blk t).view.emb (ix2 p (0 : Fin 1)))
      = Cert.Gcn.scaled (Cert.Gcn.reluPost a b d) w d (((cfg1.win 4).blk t).view.emb (ix2 p q)) := by
  rw [emb4, emb3]
  show (∑ k : Fin 256, _) * _
    = (∑ k : Fin 256, max (d (ix2 (row t p) (0 : Fin 1)) * a (ix2 (row t p) k) + b (ix2 (0 : Fin 1) k)) (Ideal.ofBits .f32 0x00000000#32)
        * w (ix2 k q)) * d (ix2 (row t p) (0 : Fin 1))
  refine congrArg (· * d (ix2 (row t p) (0 : Fin 1))) (Finset.sum_congr rfl fun k _ => ?_)
  rw [emb0, emb1, emb2]

/-- What point `t` writes back is block `t` of the second layer's pre-scaled table of the arrays the region finds. -/
theorem flushed_eq (c : Dev nD) (t : Fin cfg1.N) :
    (dat1 V c).flushed 4 t = ((cfg1.win 4).blk t).view.read (Elt Ideal)
      (Cert.Gcn.scaled (Cert.Gcn.reluPost (V c (Pipeline.arrRef spec1 0)) (V c (Pipeline.arrRef spec1 1)) (V c (Pipeline.arrRef spec1 3)))
        (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S2000x256) hz, View.ld_unit_zero (S := S256x256) hz, View.ld_unit_zero (S := S2000x1) hz,
    View.ld_unit_zero (S := S1x256) hz]
  funext j
  obtain ⟨p, q, rfl⟩ : ∃ (p : Fin 2000) (q : Fin 256), j = ix2 p q := ⟨j 0, j 1, eq_ix2 j⟩
  refine (pay_at (iblk1 V c 3 t) (iblk1 V c 0 t) (iblk1 V c 1 t) (iblk1 V c 2 t) (iblk1 V c 3 t) p q).trans ?_
  exact core (V c (Pipeline.arrRef spec1 0)) (V c (Pipeline.arrRef spec1 1)) (V c (Pipeline.arrRef spec1 2))
    (V c (Pipeline.arrRef spec1 3)) t p q

/-- An index of the array is in point `t`'s block of window 4 iff each coordinate is in the block's range on its axis. -/
theorem mem_blk4 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v32).slice (win1_4.rect t)).set ↔ _
  rw [View.set_slice_whole, Rect.mem_set_unit]
  exact Iff.rfl

/-- Every index of the array is in the block of the point its row falls in. -/
theorem cover4 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_4 _, ?_⟩
  rw [mem_blk4]
  obtain ⟨e0, e1⟩ := idx4 ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e0]; show (i 0).val / 2000 * 2000 ≤ (i 0).val ∧ (i 0).val < (i 0).val / 2000 * 2000 + 2000; omega
  | ⟨1, _⟩ =>
    show win1_4.index _ (1 : Fin 2) * 256 ≤ (i 1).val ∧ (i 1).val < win1_4.index _ (1 : Fin 2) * 256 + 256
    rw [e1]; omega

/-- The result array after the region: the second layer's pre-scaled table of the arrays the region finds. -/
theorem final (c : Dev nD) :
    (dat1 V c).arrAt 4 cfg1.N
      = Cert.Gcn.scaled (Cert.Gcn.reluPost (V c (Pipeline.arrRef spec1 0)) (V c (Pipeline.arrRef spec1 1)) (V c (Pipeline.arrRef spec1 3)))
        (V c (Pipeline.arrRef spec1 2)) (V c (Pipeline.arrRef spec1 3)) :=
  (dat1 V c).arrAt_eq_of_cover 4 _ (fun t _ => flushed_eq V c t) cover4

end Cert.KernelIdeal.Table1

end
-- ==== Proof.Table2.lean ====
/-
  Region 2: the second layer's bucket scaled and biased, and its gated blend with the previous embedding.

  The grid has 25 points; point `t` reads rows `2000·t … 2000·t + 1999` of the bucket array, of the previous embedding
  and of the factor column, the whole gate matrices and bias rows, and writes the same rows of both results. Entry
  `(p, q)` of the second result's block is `h(p,q) = d(p) · a(p,q) + b(q)`; of the first's
  `α · h(p,q) + (1 − α) · prev(p,q)` with `α = logistic(((Σₖ h(p,k)·Gw(k,q) + bw(q)) + Σₖ prev(p,k)·Gu(k,q)) + bu(q))`. Each
  block is the restriction of ONE function of the arrays (`post`, `blend`); the 25 blocks cover each array.
-/
import proofs.«124378_j90486370992781_2_alg».proof.Proof.Gen.KernelIdeal.Frame
import proofs.«124378_j90486370992781_2_alg».proof.Proof.GcnForms
import proofs.«124378_j90486370992781_2_alg».proof.Proof.BlockOps
import proofs.«124378_j90486370992781_2_alg».proof.Proof.LibSigmoid
import Idealize.ShloMosaic.Lib.Pipeline.Value
import Idealize.ShloMosaic.Lib.ValueIdx

set_option maxRecDepth 16384

noncomputable section

open scoped BigOperators

namespace Cert.KernelIdeal.Table2

open Cert.KernelIdeal Cert.KernelIdeal.Gen Cert.KernelIdeal.BlockOps
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem lt25 (t : Fin cfg2.N) : t.val < 25 := by have h1 := t.isLt; have h2 : cfg2.N = 25 := N_2; omega

/-- Row `p` of point `t`'s block is row `2000·t + p` of the array. -/
def row (t : Fin cfg2.N) (p : Fin 2000) : Fin 50000 := ⟨t.val * 2000 + p.val, by have := lt25 t; have := p.isLt; omega⟩

/-- The second result's stored value at an entry. -/
theorem pay1_at (d : Vec Ideal S2000x1 .f32) (a : Vec Ideal S2000x256 .f32) (b : Vec Ideal S1x256 .f32)
    (p : Fin 2000) (q : Fin 256) :
    k2_pay1 (F := Ideal) d a b (ix2 p q) = d (ix2 p (0 : Fin 1)) * a (ix2 p q) + b (ix2 (0 : Fin 1) q) := by
  unfold k2_pay1
  simp only [shapeCast_self, mulf_apply, addf_apply, bcol_at, brow_at]

/-- The first result's stored value at an entry. -/
theorem pay2_at (d : Vec Ideal S2000x1 .f32) (a : Vec Ideal S2000x256 .f32) (b : Vec Ideal S1x256 .f32)
    (prev : Vec Ideal S2000x256 .f32) (gw : Vec Ideal S256x256 .bf16) (bw : Vec Ideal S1x256 .f32)
    (gu : Vec Ideal S256x256 .bf16) (bu : Vec Ideal S1x256 .f32) (p : Fin 2000) (q : Fin 256) :
    k2_pay2 (F := Ideal) d a b prev gw bw gu bu (ix2 p q)
      = Ideal.logistic ((((∑ k : Fin 256, (d (ix2 p (0 : Fin 1)) * a (ix2 p k) + b (ix2 (0 : Fin 1) k)) * gw (ix2 k q)) + bw (ix2 (0 : Fin 1) q))
            + ∑ k : Fin 256, prev (ix2 p k) * gu (ix2 k q)) + bu (ix2 (0 : Fin 1) q)) * (d (ix2 p (0 : Fin 1)) * a (ix2 p q) + b (ix2 (0 : Fin 1) q))
        + (Ideal.ofBits .f32 0x3F800000#32 - Ideal.logistic ((((∑ k : Fin 256, (d (ix2 p (0 : Fin 1)) * a (ix2 p k) + b (ix2 (0 : Fin 1) k)) * gw (ix2 k q)) + bw (ix2 (0 : Fin 1) q))
            + ∑ k : Fin 256, prev (ix2 p k) * gu (ix2 k q)) + bu (ix2 (0 : Fin 1) q))) * prev (ix2 p q) := by
  unfold k2_pay2
  simp only [shapeCast_self, truncf_apply, mulf_apply, addf_apply, subf_apply, broadcast_apply, mm_at, brow_at,
    Cert.LibSigmoid.logistic_at, pay1_at]
  rfl

theorem idx0 : ∀ t : Fin cfg2.N, win2_0.index t (0 : Fin 2) = t.val ∧ win2_0.index t (1 : Fin 2) = 0 :=
  (by decide +kernel : ∀ t : Fin grid2.N, _)
theorem emb0 (t : Fin cfg2.N) (p : Fin 2000) (k : Fin 256) :
    ((cfg2.win 0).blk t).view.emb (ix2 p k) = ix2 (row t p) k := by
  obtain ⟨e0, e1⟩ := idx0 t
  funext a; apply Fin.ext
  match a with
  | ⟨0, _⟩ => show win2_0.index t (0 : Fin 2) * 2000 + 1 * p.val = t.val * 2000 + p.val; omega
  | ⟨1, _⟩ => show win2_0.index t (1 : Fin 2) * 256 + 1 * k.val = k.val; omega

theorem idx2 : ∀ t : Fin cfg2.N, win2_2.index t (0 : Fin 2) = t.val ∧ win2_2.index t (1 : Fin 2) = 0 :=
  (by decide +kernel : ∀ t : Fin grid2.N, _)
theorem emb2 (t : Fin cfg2.N) (p : Fin 2000) (k : Fin 256) :
    ((cfg2.win 2).blk t).view.emb (ix2 p k) = ix2 (row t p) k := by
  obtain ⟨e0, e1⟩ := idx2 t
  funext a; apply Fin.ext
  match a with
  | ⟨0, _⟩ => show win2_2.index t (0 : Fin 2) * 2000 + 1 * p.val = t.val * 2000 + p.val; omega
  | ⟨1, _⟩ => show win2_2.index t (1 : Fin 2) * 256 + 1 * k.val = k.val; omega

theorem idx8 : ∀ t : Fin cfg2.N, win2_8.index t (0 : Fin 2) = t.val ∧ win2_8.index t (1 : Fin 2) = 0 :=
  (by decide +kernel : ∀ t : Fin grid2.N, _)
theorem emb8 (t : Fin cfg2.N) (p : Fin 2000) (k : Fin 256) :
    ((cfg2.win 8).blk t).view.emb (ix2 p k) = ix2 (row t p) k := by
  obtain ⟨e0, e1⟩ := idx8 t
  funext a; apply Fin.ext
  match a with
  | ⟨0, _⟩ => show win2_8.index t (0 : Fin 2) * 2000 + 1 * p.val = t.val * 2000 + p.val; omega
  | ⟨1, _⟩ => show win2_8.index t (1 : Fin 2) * 256 + 1 * k.val = k.val; omega

theorem idx9 : ∀ t : Fin cfg2.N, win2_9.index t (0 : Fin 2) = t.val ∧ win2_9.index t (1 : Fin 2) = 0 :=
  (by decide +kernel : ∀ t : Fin grid2.N, _)
theorem emb9 (t : Fin cfg2.N) (p : Fin 2000) (k : Fin 256) :
    ((cfg2.win 9).blk t).view.emb (ix2 p k) = ix2 (row t p) k := by
  obtain ⟨e0, e1⟩ := idx9 t
  funext a; apply Fin.ext
  match a with
  | ⟨0, _⟩ => show win2_9.index t (0 : Fin 2) * 2000 + 1 * p.val = t.val * 2000 + p.val; omega
  | ⟨1, _⟩ => show win2_9.index t (1 : Fin 2) * 256 + 1 * k.val = k.val; omega

theorem idx1 : ∀ t : Fin cfg2.N, win2_1.index t (0 : Fin 2) = 0 ∧ win2_1.index t (1 : Fin 2) = 0 :=
  (by decide +kernel : ∀ t : Fin grid2.N, _)
theorem emb1 (t : Fin cfg2.N) (u : Fin 1) (q : Fin 256) :
    ((cfg2.win 1).blk t).view.emb (ix2 u q) = ix2 (0 : Fin 1) q := by
  obtain ⟨e0, e1⟩ := idx1 t
  funext a; apply Fin.ext
  match a with
  | ⟨0, _⟩ => show win2_1.index t (0 : Fin 2) * 1 + 1 * u.val = 0; have := u.isLt; omega
  | ⟨1, _⟩ => show win2_1.index t (1 : Fin 2) * 256 + 1 * q.val = q.val; omega

theorem idx4 : ∀ t : Fin cfg2.N, win2_4.index t (0 : Fin 2) = 0 ∧ win2_4.index t (1 : Fin 2) = 0 :=
  (by decide +kernel : ∀ t : Fin grid2.N, _)
theorem emb4 (t : Fin cfg2.N) (u : Fin 1) (q : Fin 256) :
    ((cfg2.win 4).blk t).view.emb (ix2 u q) = ix2 (0 : Fin 1) q := by
  obtain ⟨e0, e1⟩ := idx4 t
  funext a; apply Fin.ext
  match a with
  | ⟨0, _⟩ => show win2_4.index t (0 : Fin 2) * 1 + 1 * u.val = 0; have := u.isLt; omega
  | ⟨1, _⟩ => show win2_4.index t (1 : Fin 2) * 256 + 1 * q.val = q.val; omega

theorem idx6 : ∀ t : Fin cfg2.N, win2_6.index t (0 : Fin 2) = 0 ∧ win2_6.index t (1 : Fin 2) = 0 :=
  (by decide +kernel : ∀ t : Fin grid2.N, _)
theorem emb6 (t : Fin cfg2.N) (u : Fin 1) (q : Fin 256) :
    ((cfg2.win 6).blk t).view.emb (ix2 u q) = ix2 (0 : Fin 1) q := by
  obtain ⟨e0, e1⟩ := idx6 t
  funext a; apply Fin.ext
  match a with
  | ⟨0, _⟩ => show win2_6.index t (0 : Fin 2) * 1 + 1 * u.val = 0; have := u.isLt; omega
  | ⟨1, _⟩ => show win2_6.index t (1 : Fin 2) * 256 + 1 * q.val = q.val; omega

theorem idx3 : ∀ t : Fin cfg2.N, win2_3.index t (0 : Fin 2) = 0 ∧ win2_3.index t (1 : Fin 2) = 0 :=
  (by decide +kernel : ∀ t : Fin grid2.N, _)
theorem emb3 (t : Fin cfg2.N) (k : Fin 256) (q : Fin 256) :
    ((cfg2.win 3).blk t).view.emb (ix2 k q) = ix2 k q := by
  obtain ⟨e0, e1⟩ := idx3 t
  funext a; apply Fin.ext
  match a with
  | ⟨0, _⟩ => show win2_3.index t (0 : Fin 2) * 256 + 1 * k.val = k.val; omega
  | ⟨1, _⟩ => show win2_3.index t (1 : Fin 2) * 256 + 1 * q.val = q.val; omega

theorem idx5 : ∀ t : Fin cfg2.N, win2_5.index t (0 : Fin 2) = 0 ∧ win2_5.index t (1 : Fin 2) = 0 :=
  (by decide +kernel : ∀ t : Fin grid2.N, _)
theorem emb5 (t : Fin cfg2.N) (k : Fin 256) (q : Fin 256) :
    ((cfg2.win 5).blk t).view.emb (ix2 k q) = ix2 k q := by
  obtain ⟨e0, e1⟩ := idx5 t
  funext a; apply Fin.ext
  match a with
  | ⟨0, _⟩ => show win2_5.index t (0 : Fin 2) * 256 + 1 * k.val = k.val; omega
  | ⟨1, _⟩ => show win2_5.index t (1 : Fin 2) * 256 + 1 * q.val = q.val; omega

theorem idx7 : ∀ t : Fin cfg2.N, win2_7.index t (0 : Fin 2) = t.val ∧ win2_7.index t (1 : Fin 2) = 0 :=
  (by decide +kernel : ∀ t : Fin grid2.N, _)
theorem emb7 (t : Fin cfg2.N) (p : Fin 2000) (u : Fin 1) :
    ((cfg2.win 7).blk t).view.emb (ix2 p u) = ix2 (row t p) (0 : Fin 1) := by
  obtain ⟨e0, e1⟩ := idx7 t
  funext a; apply Fin.ext
  match a with
  | ⟨0, _⟩ => show win2_7.index t (0 : Fin 2) * 2000 + 1 * p.val = t.val * 2000 + p.val; omega
  | ⟨1, _⟩ => show win2_7.index t (1 : Fin 2) * 1 + 1 * u.val = 0; have := u.isLt; omega

/-- The second result's block entry, over the arrays: `post` at the array's row. -/
theorem core9 (a : S50000x256.Idx → EReal) (b : S1x256.Idx → EReal) (d : S50000x1.Idx → EReal)
    (t : Fin cfg2.N) (p : Fin 2000) (q : Fin 256) :
    (d (((cfg2.win 7).blk t).view.emb (ix2 p (0 : Fin 1))) * a (((cfg2.win 0).blk t).view.emb (ix2 p q)) + b (((cfg2.win 1).blk t).view.emb (ix2 (0 : Fin 1) q))) = Cert.Gcn.post a b d (((cfg2.win 9).blk t).view.emb (ix2 p q)) := by
  rw [emb9, emb7, emb0, emb1]
  rfl

/-- The first result's block entry, over the arrays: `blend` at the array's row. -/
theorem core8 (a : S50000x256.Idx → EReal) (b : S1x256.Idx → EReal) (prev : S50000x256.Idx → EReal)
    (gw : S256x256.Idx → EReal) (bw : S1x256.Idx → EReal) (gu : S256x256.Idx → EReal) (bu : S1x256.Idx → EReal)
    (d : S50000x1.Idx → EReal) (t : Fin cfg2.N) (p : Fin 2000) (q : Fin 256) :
    Ideal.logistic ((((∑ k : Fin 256, (d (((cfg2.win 7).blk t).view.emb (ix2 p (0 : Fin 1))) * a (((cfg2.win 0).blk t).view.emb (ix2 p k)) + b (((cfg2.win 1).blk t).view.emb (ix2 (0 : Fin 1) k))) * gw (((cfg2.win 3).blk t).view.emb (ix2 k q))) + bw (((cfg2.win 4).blk t).view.emb (ix2 (0 : Fin 1) q)))
            + ∑ k : Fin 256, prev (((cfg2.win 2).blk t).view.emb (ix2 p k)) * gu (((cfg2.win 5).blk t).view.emb (ix2 k q))) + bu (((cfg2.win 6).blk t).view.emb (ix2 (0 : Fin 1) q))) * (d (((cfg2.win 7).blk t).view.emb (ix2 p (0 : Fin 1))) * a (((cfg2.win 0).blk t).view.emb (ix2 p q)) + b (((cfg2.win 1).blk t).view.emb (ix2 (0 : Fin 1) q)))
        + (Ideal.ofBits .f32 0x3F800000#32 - Ideal.logistic ((((∑ k : Fin 256, (d (((cfg2.win 7).blk t).view.emb (ix2 p (0 : Fin 1))) * a (((cfg2.win 0).blk t).view.emb (ix2 p k)) + b (((cfg2.win 1).blk t).view.emb (ix2 (0 : Fin 1) k))) * gw (((cfg2.win 3).blk t).view.emb (ix2 k q))) + bw (((cfg2.win 4).blk t).view.emb (ix2 (0 : Fin 1) q)))
            + ∑ k : Fin 256, prev (((cfg2.win 2).blk t).view.emb (ix2 p k)) * gu (((cfg2.win 5).blk t).view.emb (ix2 k q))) + bu (((cfg2.win 6).blk t).view.emb (ix2 (0 : Fin 1) q)))) * prev (((cfg2.win 2).blk t).view.emb (ix2 p q))
      = Cert.Gcn.blend (Cert.Gcn.post a b d) prev gw bw gu bu (((cfg2.win 8).blk t).view.emb (ix2 p q)) := by
  rw [emb8, emb7, emb4, emb6, emb0, emb1, emb2]
  have hs1 : (∑ k : Fin 256, (d (ix2 (row t p) (0 : Fin 1)) * a (((cfg2.win 0).blk t).view.emb (ix2 p k)) + b (((cfg2.win 1).blk t).view.emb (ix2 (0 : Fin 1) k))) * gw (((cfg2.win 3).blk t).view.emb (ix2 k q)))
      = ∑ k : Fin 256, (d (ix2 (row t p) (0 : Fin 1)) * a (ix2 (row t p) k) + b (ix2 (0 : Fin 1) k)) * gw (ix2 k q) :=
    Finset.sum_congr rfl fun k _ => by rw [emb0, emb1, emb3]
  have hs2 : (∑ k : Fin 256, prev (((cfg2.win 2).blk t).view.emb (ix2 p k)) * gu (((cfg2.win 5).blk t).view.emb (ix2 k q)))
      = ∑ k : Fin 256, prev (ix2 (row t p) k) * gu (ix2 k q) :=
    Finset.sum_congr rfl fun k _ => by rw [emb2, emb5]
  rw [hs1, hs2]
  rfl

/-- What point `t` writes back to the second result is block `t` of `post` of the arrays the region finds. -/
theorem flushed9_eq (c : Dev nD) (t : Fin cfg2.N) :
    (dat2 V c).flushed 9 t = ((cfg2.win 9).blk t).view.read (Elt Ideal) (Cert.Gcn.post (V c (Pipeline.arrRef spec2 0)) (V c (Pipeline.arrRef spec2 1)) (V c (Pipeline.arrRef spec2 7))) := by
  show (cfg2.win 9).cut (grid2.coords t) ((dat2 V c).after 9 t) = _
  rw [after2_9]
  unfold out2_9
  rw [View.canon_unit_zero hz]
  simp only [View.ld_unit_zero (S := S2000x256) hz, View.ld_unit_zero (S := S2000x1) hz, View.ld_unit_zero (S := S1x256) hz]
  funext j
  obtain ⟨p, q, rfl⟩ : ∃ (p : Fin 2000) (q : Fin 256), j = ix2 p q := ⟨j 0, j 1, eq_ix2 j⟩
  refine (pay1_at (iblk2 V c 7 t) (iblk2 V c 0 t) (iblk2 V c 1 t) p q).trans ?_
  exact core9 (V c (Pipeline.arrRef spec2 0)) (V c (Pipeline.arrRef spec2 1)) (V c (Pipeline.arrRef spec2 7)) t p q

set_option maxHeartbeats 4000000 in
/-- What point `t` writes back to the first result is block `t` of `blend` of the arrays the region finds. -/
theorem flushed8_eq (c : Dev nD) (t : Fin cfg2.N) :
    (dat2 V c).flushed 8 t = ((cfg2.win 8).blk t).view.read (Elt Ideal)
      (Cert.Gcn.blend (Cert.Gcn.post (V c (Pipeline.arrRef spec2 0)) (V c (Pipeline.arrRef spec2 1)) (V c (Pipeline.arrRef spec2 7))) (V c (Pipeline.arrRef spec2 2)) (V c (Pipeline.arrRef spec2 3)) (V c (Pipeline.arrRef spec2 4)) (V c (Pipeline.arrRef spec2 5)) (V c (Pipeline.arrRef spec2 6))) := by
  show (cfg2.win 8).cut (grid2.coords t) ((dat2 V c).after 8 t) = _
  rw [after2_8]
  unfold out2_8
  rw [View.canon_unit_zero hz]
  simp only [View.ld_unit_zero (S := S2000x256) hz, View.ld_unit_zero (S := S256x256) hz, View.ld_unit_zero (S := S2000x1) hz,
    View.ld_unit_zero (S := S1x256) hz]
  funext j
  obtain ⟨p, q, rfl⟩ : ∃ (p : Fin 2000) (q : Fin 256), j = ix2 p q := ⟨j 0, j 1, eq_ix2 j⟩
  refine (pay2_at (iblk2 V c 7 t) (iblk2 V c 0 t) (iblk2 V c 1 t) (iblk2 V c 2 t) (iblk2 V c 3 t) (iblk2 V c 4 t)
    (iblk2 V c 5 t) (iblk2 V c 6 t) p q).trans ?_
  exact core8 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) t p q

/-- An index of the array is in point `t`'s block of window 8 iff each coordinate is in the block's range on its axis. -/
theorem mem_blk8 (t : Fin cfg2.N) (i : S50000x256.Idx) :
    i ∈ ((cfg2.win 8).blk t).view.set ↔ ∀ a : Fin 2, win2_8.index t a * S2000x256.size a ≤ (i a).val
      ∧ (i a).val < win2_8.index t a * S2000x256.size a + S2000x256.size a := by
  show i ∈ ((View.whole main_v49_0).slice (win2_8.rect t)).set ↔ _
  rw [View.set_slice_whole, Rect.mem_set_unit]
  exact Iff.rfl

/-- Every index of the array is in the block of the point its row falls in. -/
theorem cover8 (i : S50000x256.Idx) :
    ∃ t : Fin cfg2.N, (cfg2.win 8).flush t = true ∧ i ∈ ((cfg2.win 8).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_8 _, ?_⟩
  rw [mem_blk8]
  obtain ⟨e0, e1⟩ := idx8 ⟨(i 0).val / 2000, by rw [hN]; omega⟩
  intro a
  match a with
  | ⟨0, _⟩ =>
    show win2_8.index _ (0 : Fin 2) * 2000 ≤ (i 0).val ∧ (i 0).val < win2_8.index _ (0 : Fin 2) * 2000 + 2000
    rw [e0]; show (i 0).val / 2000 * 2000 ≤ (i 0).val ∧ (i 0).val < (i 0).val / 2000 * 2000 + 2000; omega
  | ⟨1, _⟩ =>
    show win2_8.index _ (1 : Fin 2) * 256 ≤ (i 1).val ∧ (i 1).val < win2_8.index _ (1 : Fin 2) * 256 + 256
    rw [e1]; omega

/-- An index of the array is in point `t`'s block of window 9 iff each coordinate is in the block's range on its axis. -/
theorem mem_blk9 (t : Fin cfg2.N) (i : S50000x256.Idx) :
    i ∈ ((cfg2.win 9).blk t).view.set ↔ ∀ a : Fin 2, win2_9.index t a * S2000x256.size a ≤ (i a).val
      ∧ (i a).val < win2_9.index t a * S2000x256.size a + S2000x256.size a := by
  show i ∈ ((View.whole main_v49_1).slice (win2_9.rect t)).set ↔ _
  rw [View.set_slice_whole, Rect.mem_set_unit]
  exact Iff.rfl

/-- Every index of the array is in the block of the point its row falls in. -/
theorem cover9 (i : S50000x256.Idx) :
    ∃ t : Fin cfg2.N, (cfg2.win 9).flush t = true ∧ i ∈ ((cfg2.win 9).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_9 _, ?_⟩
  rw [mem_blk9]
  obtain ⟨e0, e1⟩ := idx9 ⟨(i 0).val / 2000, by rw [hN]; omega⟩
  intro a
  match a with
  | ⟨0, _⟩ =>
    show win2_9.index _ (0 : Fin 2) * 2000 ≤ (i 0).val ∧ (i 0).val < win2_9.index _ (0 : Fin 2) * 2000 + 2000
    rw [e0]; show (i 0).val / 2000 * 2000 ≤ (i 0).val ∧ (i 0).val < (i 0).val / 2000 * 2000 + 2000; omega
  | ⟨1, _⟩ =>
    show win2_9.index _ (1 : Fin 2) * 256 ≤ (i 1).val ∧ (i 1).val < win2_9.index _ (1 : Fin 2) * 256 + 256
    rw [e1]; omega

/-- The second result array after the region. -/
theorem final9 (c : Dev nD) :
    (dat2 V c).arrAt 9 cfg2.N = Cert.Gcn.post (V c (Pipeline.arrRef spec2 0)) (V c (Pipeline.arrRef spec2 1)) (V c (Pipeline.arrRef spec2 7)) :=
  (dat2 V c).arrAt_eq_of_cover 9 _ (fun t _ => flushed9_eq V c t) cover9

/-- The first result array after the region. -/
theorem final8 (c : Dev nD) :
    (dat2 V c).arrAt 8 cfg2.N
      = Cert.Gcn.blend (Cert.Gcn.post (V c (Pipeline.arrRef spec2 0)) (V c (Pipeline.arrRef spec2 1)) (V c (Pipeline.arrRef spec2 7))) (V c (Pipeline.arrRef spec2 2)) (V c (Pipeline.arrRef spec2 3)) (V c (Pipeline.arrRef spec2 4)) (V c (Pipeline.arrRef spec2 5)) (V c (Pipeline.arrRef spec2 6)) :=
  (dat2 V c).arrAt_eq_of_cover 8 _ (fun t _ => flushed8_eq V c t) cover8

end Cert.KernelIdeal.Table2

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.KernelFold.lean ====
/-
  The idealized kernel's two results as functions of its arguments.

  The program's run is a fold through eight segments: stretches of host operations and three pipelined regions. Read
  one buffer at a time, from the results back to the launch memory:
  * the host computes, from the edge list alone, the source and destination words (the edges followed by one self loop
    per node), each node's degree (the destination words that land on it, counted from zero) and factor (the inverse
    square root of the degree where positive, zero elsewhere);
  * region 0 leaves the first layer's pre-scaled table of the features; the host gathers its rows at the source column
    and sums them, from zero, into the destination's buckets;
  * region 1 leaves the second layer's pre-scaled table of the rectified, post-scaled first buckets; the host gathers
    and sums again;
  * region 2 leaves the post-scaled second buckets and their gated blend with the previous embedding.
  A buffer no later segment writes keeps its contents (an input window's array is left as the region found it).
-/
import proofs.«124378_j90486370992781_2_alg».proof.Proof.KernelEnds
import proofs.«124378_j90486370992781_2_alg».proof.Proof.Table0
import proofs.«124378_j90486370992781_2_alg».proof.Proof.Table1
import proofs.«124378_j90486370992781_2_alg».proof.Proof.Table2
import proofs.«124378_j90486370992781_2_alg».proof.Proof.LibTypedRef

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo

/-! ## The host's spellings -/

/-- The source words: the edge list's first row, then the node numbers (one self loop per node). -/
def srcWords (a1 : IVec S2x800000 32) : IVec S850000 32 :=
  concatenate S850000 0 [⟨S800000, shapeCast S800000 (extractStridedSlice S1x800000 ![0, 0] a1 slices_S2x800000_S1x800000_0_0)
    shapeCasts_S1x800000_S800000⟩, ⟨S50000, iotaInDim S50000 32 0⟩] concatenates_S800000_S50000_S850000_d0

/-- The destination words: the edge list's second row, then the node numbers. -/
def dstWords (a1 : IVec S2x800000 32) : IVec S850000 32 :=
  concatenate S850000 0 [⟨S800000, shapeCast S800000 (extractStridedSlice S1x800000 ![1, 0] a1 slices_S2x800000_S1x800000_1_0)
    shapeCasts_S1x800000_S800000⟩, ⟨S50000, iotaInDim S50000 32 0⟩] concatenates_S800000_S50000_S850000_d0

/-- A node's degree: the number of destination words that land on it, summed as ones from zero. -/
def degree (d6 : IVec S850000 32) : FVec Ideal S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 d6) (broadcastInDim S850000 ![] bcast_S_S850000 (constant S_ .f32 0x3F800000#32))

/-- A node's factor: the inverse square root of its degree where that is positive, zero elsewhere. -/
def factor (d6 : IVec S850000 32) : FVec Ideal S50000 .f32 :=
  select (cmpf .ogt (degree d6) (broadcastInDim S50000 ![] bcast_S_S50000 (constant S_ .f32 0x00000000#32))) (Host.rsqrt (degree d6))
    (broadcastInDim S50000 ![] bcast_S_S50000 (id (constant S_ .f32 0x00000000#32)))

/-- The factors as a column. -/
def factorCol (d6 : IVec S850000 32) : FVec Ideal S50000x1 .f32 := shapeCast S50000x1 (factor d6) shapeCasts_S50000_S50000x1

/-- The source column the rows are gathered at: negative words moved up by the node count, as a column. -/
def srcCol (s3 : IVec S850000 32) : IVec S850000x1 32 :=
  broadcastInDim S850000x1 ![0] bcast_S850000_S850000x1_0
    (select (cmpi .slt s3 (broadcastInDim S850000 ![] bcast_S_S850000 (constantI S_ 32 0#32)))
      (addi s3 (broadcastInDim S850000 ![] bcast_S_S850000 (constantI S_ 32 50000#32))) s3)

/-- The destination column the rows are summed at. -/
def dstCol (d6 : IVec S850000 32) : IVec S850000x1 32 := broadcastInDim S850000x1 ![0] bcast_S850000_S850000x1_0 d6

/-- The buckets: the table's rows gathered at the source column and summed, from zero, at the destination column. -/
def bucket (T : FVec Ideal S50000x256 .bf16) (s3 d6 : IVec S850000 32) : FVec Ideal S50000x256 .f32 :=
  Host.scatterAdd scatter_S50000x256_S850000x1_S850000x256_1_0_0_1
    (broadcastInDim S50000x256 ![] bcast_S_S50000x256 (constant S_ .f32 0x00000000#32)) (dstCol d6)
    (extf .f32 (Host.gather gather_S50000x256_S850000x1_S850000x256_1_0_n_n_0_1_1256 T (srcCol s3)) bitsLt_bf16_f32)

/-- The kernel's arrangement of the whole computation, as functions of the argument arrays. -/
def table1 (a0 : FVec Ideal S50000x256 .f32) (a1 : IVec S2x800000 32) (a3 : FVec Ideal S256x256 .f32) : FVec Ideal S50000x256 .bf16 :=
  Cert.Gcn.scaled (truncf .bf16 a0 bitsLt_bf16_f32 : FVec Ideal S50000x256 .bf16) (truncf .bf16 a3 bitsLt_bf16_f32 : FVec Ideal S256x256 .bf16)
    (factorCol (dstWords a1))

def table2 (a0 : FVec Ideal S50000x256 .f32) (a1 : IVec S2x800000 32) (a3 : FVec Ideal S256x256 .f32) (a4 : FVec Ideal S256 .f32)
    (a5 : FVec Ideal S256x256 .f32) : FVec Ideal S50000x256 .bf16 :=
  Cert.Gcn.scaled (Cert.Gcn.reluPost (bucket (table1 a0 a1 a3) (srcWords a1) (dstWords a1))
      (shapeCast S1x256 a4 shapeCasts_S256_S1x256 : FVec Ideal S1x256 .f32) (factorCol (dstWords a1)))
    (truncf .bf16 a5 bitsLt_bf16_f32 : FVec Ideal S256x256 .bf16) (factorCol (dstWords a1))

def second (a0 : FVec Ideal S50000x256 .f32) (a1 : IVec S2x800000 32) (a3 : FVec Ideal S256x256 .f32) (a4 : FVec Ideal S256 .f32)
    (a5 : FVec Ideal S256x256 .f32) (a6 : FVec Ideal S256 .f32) : FVec Ideal S50000x256 .f32 :=
  Cert.Gcn.post (bucket (table2 a0 a1 a3 a4 a5) (srcWords a1) (dstWords a1))
    (shapeCast S1x256 a6 shapeCasts_S256_S1x256 : FVec Ideal S1x256 .f32) (factorCol (dstWords a1))

def blended (a0 : FVec Ideal S50000x256 .f32) (a1 : IVec S2x800000 32) (a2 : FVec Ideal S50000x256 .f32) (a3 : FVec Ideal S256x256 .f32)
    (a4 : FVec Ideal S256 .f32) (a5 : FVec Ideal S256x256 .f32) (a6 : FVec Ideal S256 .f32) (a7 : FVec Ideal S256x256 .f32)
    (a8 : FVec Ideal S256 .f32) (a9 : FVec Ideal S256x256 .f32) (a10 : FVec Ideal S256 .f32) : FVec Ideal S50000x256 .f32 :=
  Cert.Gcn.blend (second a0 a1 a3 a4 a5 a6) a2 (truncf .bf16 a7 bitsLt_bf16_f32 : FVec Ideal S256x256 .bf16)
    (shapeCast S1x256 a8 shapeCasts_S256_S1x256 : FVec Ideal S1x256 .f32) (truncf .bf16 a9 bitsLt_bf16_f32 : FVec Ideal S256x256 .bf16)
    (shapeCast S1x256 a10 shapeCasts_S256_S1x256 : FVec Ideal S1x256 .f32)

variable (m : (ℓ : Loc nD τ sig) → Buf (Elt Ideal) ℓ) (ρ : Dev nD → PrngReg)

/-! ## Buffers that keep their contents -/

theorem kept_arg0_2_0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem kept_arg3_2_0 (c : Dev nD) : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem kept_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_v6_4_1 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_v3_6_1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_v6_6_1 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_v15_5_3 (c : Dev nD) : W5 m ρ c (Proc.devRef .tc main_v15) = W3 m ρ c (Proc.devRef .tc main_v15) :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem kept_v15_7_3 (c : Dev nD) : W7 m ρ c (Proc.devRef .tc main_v15) = W3 m ρ c (Proc.devRef .tc main_v15) :=
  calc W7 m ρ c (Proc.devRef .tc main_v15)
    _ = W6 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := (W6_arr m ρ c 3).trans (((dat1 (V5 m ρ) c).arrAt_in 3 rfl _).trans (A_eq1 (V5 m ρ) c 3))
    _ = W4 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem kept_arg4_4_0 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem kept_arg5_4_0 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem kept_arg6_6_0 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem kept_arg7_6_0 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem kept_arg8_6_0 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem kept_arg9_6_0 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem kept_arg10_6_0 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem kept_arg2_7_0 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The host stretches, one buffer at a time -/

theorem W1_v3 (c : Dev nD) : @Eq (IVec S850000 32) (W1 m ρ c (Proc.devRef .tc main_v3))
    (srcWords (m ((c : Thread nD τ).loc main_arg1))) := by
  show StableHlo.after hostOps0 (W0 m ρ c) (Proc.devRef .tc main_v3) = _
  after_results
  all_goals rfl

theorem W1_v6 (c : Dev nD) : @Eq (IVec S850000 32) (W1 m ρ c (Proc.devRef .tc main_v6))
    (dstWords (m ((c : Thread nD τ).loc main_arg1))) := by
  show StableHlo.after hostOps0 (W0 m ρ c) (Proc.devRef .tc main_v6) = _
  after_results
  all_goals rfl

theorem W1_v12 (c : Dev nD) : @Eq (IVec S50000 1) (W1 m ρ c (Proc.devRef .tc main_v12))
    (cmpf .ogt (degree (dstWords (m ((c : Thread nD τ).loc main_arg1)))) (broadcastInDim S50000 ![] bcast_S_S50000 (constant S_ .f32 0x00000000#32))) := by
  show StableHlo.after hostOps0 (W0 m ρ c) (Proc.devRef .tc main_v12) = _
  after_results
  all_goals rfl

theorem W1_v13 (c : Dev nD) : @Eq (FVec Ideal S50000 .f32) (W1 m ρ c (Proc.devRef .tc main_v13))
    (Host.rsqrt (degree (dstWords (m ((c : Thread nD τ).loc main_arg1))))) := by
  show StableHlo.after hostOps0 (W0 m ρ c) (Proc.devRef .tc main_v13) = _
  after_results
  all_goals rfl

theorem W1_cst2 (c : Dev nD) : @Eq (FVec Ideal S_ .f32) (W1 m ρ c (Proc.devRef .tc main_cst_2))
    (constant S_ .f32 0x00000000#32) := by
  show StableHlo.after hostOps0 (W0 m ρ c) (Proc.devRef .tc main_cst_2) = _
  after_results
  all_goals rfl

set_option maxRecDepth 65536 in
theorem W2_v14 (c : Dev nD) : @Eq (FVec Ideal S50000 .f32) (W2 m ρ c (Proc.devRef .tc main_v14))
    (select (W1 m ρ c (Proc.devRef .tc main_v12) : IVec S50000 1) (W1 m ρ c (Proc.devRef .tc main_v13) : FVec Ideal S50000 .f32)
        (broadcastInDim S50000 ![] bcast_S_S50000 (id (W1 m ρ c (Proc.devRef .tc main_cst_2) : FVec Ideal S_ .f32)))) := by
  show StableHlo.after hostOps0_1 (W1 m ρ c) (Proc.devRef .tc main_v14) = _
  generalize W1 m ρ c = W
  after_results_simp
  simp only [Cert.LibTypedRef.ofBuf_toBuf]
  rfl

/-- The factor array the host leaves. -/
theorem W2_factor (c : Dev nD) : @Eq (FVec Ideal S50000 .f32) (W2 m ρ c (Proc.devRef .tc main_v14))
    (factor (dstWords (m ((c : Thread nD τ).loc main_arg1)))) := by
  rw [W2_v14, W1_v12, W1_v13, W1_cst2]
  rfl

theorem W3_v15 (c : Dev nD) : @Eq (FVec Ideal S50000x1 .f32) (W3 m ρ c (Proc.devRef .tc main_v15))
    (shapeCast S50000x1 (W2 m ρ c (Proc.devRef .tc main_v14) : FVec Ideal S50000 .f32) shapeCasts_S50000_S50000x1) := by
  show StableHlo.after hostOps0_2 (W2 m ρ c) (Proc.devRef .tc main_v15) = _
  generalize W2 m ρ c = W
  after_results
  all_goals rfl

theorem W3_v16 (c : Dev nD) : @Eq (FVec Ideal S50000x256 .bf16) (W3 m ρ c (Proc.devRef .tc main_v16))
    (truncf .bf16 (W2 m ρ c (Proc.devRef .tc main_arg0) : FVec Ideal S50000x256 .f32) bitsLt_bf16_f32) := by
  show StableHlo.after hostOps0_2 (W2 m ρ c) (Proc.devRef .tc main_v16) = _
  generalize W2 m ρ c = W
  after_results
  all_goals rfl

theorem W3_v17 (c : Dev nD) : @Eq (FVec Ideal S256x256 .bf16) (W3 m ρ c (Proc.devRef .tc main_v17))
    (truncf .bf16 (W2 m ρ c (Proc.devRef .tc main_arg3) : FVec Ideal S256x256 .f32) bitsLt_bf16_f32) := by
  show StableHlo.after hostOps0_2 (W2 m ρ c) (Proc.devRef .tc main_v17) = _
  generalize W2 m ρ c = W
  after_results
  all_goals rfl

theorem W5_v29 (c : Dev nD) : @Eq (FVec Ideal S50000x256 .f32) (W5 m ρ c (Proc.devRef .tc main_v29))
    (bucket (W4 m ρ c (Proc.devRef .tc main_v18) : FVec Ideal S50000x256 .bf16) (W4 m ρ c (Proc.devRef .tc main_v3) : IVec S850000 32) (W4 m ρ c (Proc.devRef .tc main_v6) : IVec S850000 32)) := by
  show StableHlo.after hostOps1 (W4 m ρ c) (Proc.devRef .tc main_v29) = _
  after_results
  all_goals rfl

theorem W5_v30 (c : Dev nD) : @Eq (FVec Ideal S1x256 .f32) (W5 m ρ c (Proc.devRef .tc main_v30))
    (shapeCast S1x256 (W4 m ρ c (Proc.devRef .tc main_arg4) : FVec Ideal S256 .f32) shapeCasts_S256_S1x256) := by
  show StableHlo.after hostOps1 (W4 m ρ c) (Proc.devRef .tc main_v30) = _
  after_results
  all_goals rfl

theorem W5_v31 (c : Dev nD) : @Eq (FVec Ideal S256x256 .bf16) (W5 m ρ c (Proc.devRef .tc main_v31))
    (truncf .bf16 (W4 m ρ c (Proc.devRef .tc main_arg5) : FVec Ideal S256x256 .f32) bitsLt_bf16_f32) := by
  show StableHlo.after hostOps1 (W4 m ρ c) (Proc.devRef .tc main_v31) = _
  after_results
  all_goals rfl

theorem W7_v43 (c : Dev nD) : @Eq (FVec Ideal S50000x256 .f32) (W7 m ρ c (Proc.devRef .tc main_v43))
    (bucket (W6 m ρ c (Proc.devRef .tc main_v32) : FVec Ideal S50000x256 .bf16) (W6 m ρ c (Proc.devRef .tc main_v3) : IVec S850000 32) (W6 m ρ c (Proc.devRef .tc main_v6) : IVec S850000 32)) := by
  show StableHlo.after hostOps2 (W6 m ρ c) (Proc.devRef .tc main_v43) = _
  after_results
  all_goals rfl

theorem W7_v44 (c : Dev nD) : @Eq (FVec Ideal S1x256 .f32) (W7 m ρ c (Proc.devRef .tc main_v44))
    (shapeCast S1x256 (W6 m ρ c (Proc.devRef .tc main_arg6) : FVec Ideal S256 .f32) shapeCasts_S256_S1x256) := by
  show StableHlo.after hostOps2 (W6 m ρ c) (Proc.devRef .tc main_v44) = _
  after_results
  all_goals rfl

theorem W7_v45 (c : Dev nD) : @Eq (FVec Ideal S256x256 .bf16) (W7 m ρ c (Proc.devRef .tc main_v45))
    (truncf .bf16 (W6 m ρ c (Proc.devRef .tc main_arg7) : FVec Ideal S256x256 .f32) bitsLt_bf16_f32) := by
  show StableHlo.after hostOps2 (W6 m ρ c) (Proc.devRef .tc main_v45) = _
  after_results
  all_goals rfl

theorem W7_v46 (c : Dev nD) : @Eq (FVec Ideal S256x256 .bf16) (W7 m ρ c (Proc.devRef .tc main_v46))
    (truncf .bf16 (W6 m ρ c (Proc.devRef .tc main_arg9) : FVec Ideal S256x256 .f32) bitsLt_bf16_f32) := by
  show StableHlo.after hostOps2 (W6 m ρ c) (Proc.devRef .tc main_v46) = _
  after_results
  all_goals rfl

theorem W7_v47 (c : Dev nD) : @Eq (FVec Ideal S1x256 .f32) (W7 m ρ c (Proc.devRef .tc main_v47))
    (shapeCast S1x256 (W6 m ρ c (Proc.devRef .tc main_arg8) : FVec Ideal S256 .f32) shapeCasts_S256_S1x256) := by
  show StableHlo.after hostOps2 (W6 m ρ c) (Proc.devRef .tc main_v47) = _
  after_results
  all_goals rfl

theorem W7_v48 (c : Dev nD) : @Eq (FVec Ideal S1x256 .f32) (W7 m ρ c (Proc.devRef .tc main_v48))
    (shapeCast S1x256 (W6 m ρ c (Proc.devRef .tc main_arg10) : FVec Ideal S256 .f32) shapeCasts_S256_S1x256) := by
  show StableHlo.after hostOps2 (W6 m ρ c) (Proc.devRef .tc main_v48) = _
  after_results
  all_goals rfl

/-! ## The regions' results -/

theorem W4_v18 (c : Dev nD) : @Eq (FVec Ideal S50000x256 .bf16) (W4 m ρ c (Proc.devRef .tc main_v18))
    (Cert.Gcn.scaled (W3 m ρ c (Proc.devRef .tc main_v16)) (W3 m ρ c (Proc.devRef .tc main_v17)) (W3 m ρ c (Proc.devRef .tc main_v15))) :=
  (W4_arr m ρ c 3).trans (Cert.KernelIdeal.Table0.final (V3 m ρ) c)

theorem W6_v32 (c : Dev nD) : @Eq (FVec Ideal S50000x256 .bf16) (W6 m ρ c (Proc.devRef .tc main_v32))
    (Cert.Gcn.scaled (Cert.Gcn.reluPost (W5 m ρ c (Proc.devRef .tc main_v29)) (W5 m ρ c (Proc.devRef .tc main_v30)) (W5 m ρ c (Proc.devRef .tc main_v15)))
        (W5 m ρ c (Proc.devRef .tc main_v31)) (W5 m ρ c (Proc.devRef .tc main_v15))) :=
  (W6_arr m ρ c 4).trans (Cert.KernelIdeal.Table1.final (V5 m ρ) c)

theorem W8_v49_1 (c : Dev nD) : @Eq (FVec Ideal S50000x256 .f32) (W8 m ρ c (Proc.devRef .tc main_v49_1))
    (Cert.Gcn.post (W7 m ρ c (Proc.devRef .tc main_v43)) (W7 m ρ c (Proc.devRef .tc main_v44)) (W7 m ρ c (Proc.devRef .tc main_v15))) :=
  (W8_arr m ρ c 9).trans (Cert.KernelIdeal.Table2.final9 (V7 m ρ) c)

theorem W8_v49_0 (c : Dev nD) : @Eq (FVec Ideal S50000x256 .f32) (W8 m ρ c (Proc.devRef .tc main_v49_0))
    (Cert.Gcn.blend (Cert.Gcn.post (W7 m ρ c (Proc.devRef .tc main_v43)) (W7 m ρ c (Proc.devRef .tc main_v44)) (W7 m ρ c (Proc.devRef .tc main_v15)))
        (W7 m ρ c (Proc.devRef .tc main_arg2)) (W7 m ρ c (Proc.devRef .tc main_v45)) (W7 m ρ c (Proc.devRef .tc main_v47)) (W7 m ρ c (Proc.devRef .tc main_v46)) (W7 m ρ c (Proc.devRef .tc main_v48))) :=
  (W8_arr m ρ c 8).trans (Cert.KernelIdeal.Table2.final8 (V7 m ρ) c)

/-! ## The fold, joined -/

theorem factorCol_eq (c : Dev nD) : @Eq (FVec Ideal S50000x1 .f32) (W3 m ρ c (Proc.devRef .tc main_v15))
    (factorCol (dstWords (m ((c : Thread nD τ).loc main_arg1)))) := by
  rw [W3_v15, W2_factor]
  rfl

theorem table1_eq (c : Dev nD) : @Eq (FVec Ideal S50000x256 .bf16) (W4 m ρ c (Proc.devRef .tc main_v18))
    (table1 (m ((c : Thread nD τ).loc main_arg0)) (m ((c : Thread nD τ).loc main_arg1)) (m ((c : Thread nD τ).loc main_arg3))) := by
  rw [W4_v18, W3_v16, W3_v17, factorCol_eq, kept_arg0_2_0, kept_arg3_2_0]
  rfl

theorem bucket1_eq (c : Dev nD) : @Eq (FVec Ideal S50000x256 .f32) (W5 m ρ c (Proc.devRef .tc main_v29))
    (bucket (table1 (m ((c : Thread nD τ).loc main_arg0)) (m ((c : Thread nD τ).loc main_arg1)) (m ((c : Thread nD τ).loc main_arg3))) (srcWords (m ((c : Thread nD τ).loc main_arg1))) (dstWords (m ((c : Thread nD τ).loc main_arg1)))) := by
  rw [W5_v29, table1_eq, kept_v3_4_1, kept_v6_4_1, W1_v3, W1_v6]

theorem table2_eq (c : Dev nD) : @Eq (FVec Ideal S50000x256 .bf16) (W6 m ρ c (Proc.devRef .tc main_v32))
    (table2 (m ((c : Thread nD τ).loc main_arg0)) (m ((c : Thread nD τ).loc main_arg1)) (m ((c : Thread nD τ).loc main_arg3)) (m ((c : Thread nD τ).loc main_arg4)) (m ((c : Thread nD τ).loc main_arg5))) := by
  rw [W6_v32, bucket1_eq, W5_v30, W5_v31, kept_v15_5_3, factorCol_eq, kept_arg4_4_0, kept_arg5_4_0]
  rfl

theorem bucket2_eq (c : Dev nD) : @Eq (FVec Ideal S50000x256 .f32) (W7 m ρ c (Proc.devRef .tc main_v43))
    (bucket (table2 (m ((c : Thread nD τ).loc main_arg0)) (m ((c : Thread nD τ).loc main_arg1)) (m ((c : Thread nD τ).loc main_arg3)) (m ((c : Thread nD τ).loc main_arg4)) (m ((c : Thread nD τ).loc main_arg5))) (srcWords (m ((c : Thread nD τ).loc main_arg1))) (dstWords (m ((c : Thread nD τ).loc main_arg1)))) := by
  rw [W7_v43, table2_eq, kept_v3_6_1, kept_v6_6_1, W1_v3, W1_v6]

/-- The second result (the second layer's output) after the run. -/
theorem ends1 (c : Dev nD) : @Eq (FVec Ideal S50000x256 .f32) (W8 m ρ c (Proc.devRef .tc main_v49_1))
    (second (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  rw [W8_v49_1, bucket2_eq, W7_v44, kept_v15_7_3, factorCol_eq, kept_arg6_6_0]
  rfl

/-- The first result (the gated blend) after the run. -/
theorem ends0 (c : Dev nD) : @Eq (FVec Ideal S50000x256 .f32) (W8 m ρ c (Proc.devRef .tc main_v49_0))
    (blended (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [W8_v49_0, bucket2_eq, W7_v44, kept_v15_7_3, factorCol_eq, kept_arg6_6_0, kept_arg2_7_0, W7_v45, W7_v47, W7_v46, W7_v48,
    kept_arg7_6_0, kept_arg8_6_0, kept_arg9_6_0, kept_arg10_6_0]
  rfl

end Cert.KernelIdeal.Fold

end
-- ==== Proof.RefSide.lean ====
/-
  The reference's results read entry by entry, on the extended reals.

  The reference is a two-layer graph convolution followed by a gated blend. Every edge `e` carries the weight
  `d(source e) · d(destination e)`, where `d` is a node's factor: the inverse square root of its degree where the degree
  is positive and zero elsewhere. A layer multiplies the node features by a weight matrix, gathers the product's rows at
  the edges' sources, scales every gathered row by its edge's weight, sums the scaled rows into the destinations'
  buckets and adds a bias row. The first layer is rectified against zero. The second layer's result `h` is blended with
  the previous embedding `p`: `α · h + (1 − α) · p` with `α = 1 / (1 + exp (−(((h·Gw + bw) + p·Gu) + bu)))`.

  Read at an entry `(n, c)`:
  * a layer's result is the weighted aggregation `aggAt` of the matrix product (`ref_h1_at` for the rectified first
    layer, `ref_ht_at` for the second);
  * the blend is `blendAt` of the second layer's result (`ref_out_at`): the quotient spelling of `α` is the logistic
    function;
  * the weight of an edge that lands on node `n` is the source's factor times `n`'s factor (`ref_nrm`): an index word
    that reads as `n` is not negative, so the wrap-around of negative indices leaves it alone and it names row `n`;
  * a node's factor is non-negative and finite whatever its degree is (`ref_factor_good`);
  * the second layer's source column, destination column and start matrix are the first layer's (`src_cols_eq`,
    `dst_cols_eq`, `zeros_eq`), and the start matrix is zero at every entry (`zeros_at`).
-/
import proofs.«124378_j90486370992781_2_alg».proof.Proof.RefReadP
import proofs.«124378_j90486370992781_2_alg».proof.Proof.GcnForms
import proofs.«124378_j90486370992781_2_alg».proof.Proof.LibGcnAgg
import proofs.«124378_j90486370992781_2_alg».proof.Proof.LibSegSum
import proofs.«124378_j90486370992781_2_alg».proof.Proof.LibGatherFlatRows
import proofs.«124378_j90486370992781_2_alg».proof.Proof.LibHostRows
import proofs.«124378_j90486370992781_2_alg».proof.Proof.LibMatProd
import proofs.«124378_j90486370992781_2_alg».proof.Proof.LibSigmoid
import proofs.«124378_j90486370992781_2_alg».proof.Proof.LibGcnPrescale

noncomputable section

open scoped BigOperators

namespace Cert.RefSide

open Cert.ReferenceIdeal Cert.ReferenceIdeal.Gen Idealize.ShloMosaic Idealize.ShloMosaic.ValueIdx

/-- Node-by-feature arrays, the edge list, square weight matrices and bias vectors, on the extended reals. -/
abbrev TNC : Type := (⟨S50000x256, .f32⟩ : BufTy).Contents (Elt Ideal)
abbrev TEdges : Type := (⟨S2x800000, .i32⟩ : BufTy).Contents (Elt Ideal)
abbrev TCC : Type := (⟨S256x256, .f32⟩ : BufTy).Contents (Elt Ideal)
abbrev TC : Type := (⟨S256, .f32⟩ : BufTy).Contents (Elt Ideal)

/-! ## Small readings -/

/-- A bias vector written as a row and repeated down the rows reads, at `(n, c)`, the vector at `c`. -/
theorem bias_row_at (b : TC) (n : Fin 50000) (c : Fin 256) :
    broadcastInDim S50000x256 ![0, 1] bcast_S1x256_S50000x256_0_1
      (broadcastInDim S1x256 ![1] bcast_S256_S1x256_1 b) (ix2 n c) = b (ix1 c) :=
  (Cert.LibHostRows.bcast_1b_ab_at ![0, 1] rfl rfl bcast_S1x256_S50000x256_0_1
      (broadcastInDim S1x256 ![1] bcast_S256_S1x256_1 b) n c).trans
    (Cert.LibHostRows.bcast_b_1b_at ![1] rfl bcast_S256_S1x256_1 b (0 : Fin 1) c)

/-- The first layer's start matrix is zero at every entry. -/
theorem zeros_at (i : S50000x256.Idx) :
    ReadP.val_main_v41 (F := Ideal) i = Ideal.ofBits .f32 0x00000000#32 := by
  exact (ReadP.val_main_v41_apply (F := Ideal) i).trans rfl

/-- The rectifier's zero matrix is zero at every entry. -/
theorem relu_zero_at (i : S50000x256.Idx) :
    ReadP.val_main_call1_v0 (F := Ideal) i = Ideal.ofBits .f32 0x00000000#32 := by
  exact (ReadP.val_main_call1_v0_apply (F := Ideal) i).trans rfl

/-- The second layer gathers at the same source column as the first … -/
theorem src_cols_eq (a1 : TEdges) : ReadP.val_main_v54 (F := Ideal) a1 = ReadP.val_main_v36 (F := Ideal) a1 := rfl

/-- … scatters at the same destination column … -/
theorem dst_cols_eq (a1 : TEdges) : ReadP.val_main_v60 (F := Ideal) a1 = ReadP.val_main_v42 (F := Ideal) a1 := rfl

/-- … and starts from the same zero matrix. -/
theorem zeros_eq : ReadP.val_main_v59 (F := Ideal) = ReadP.val_main_v41 (F := Ideal) := rfl

/-- The edge weights' source column is the layers' source column. -/
theorem nrm_src_cols_eq (a1 : TEdges) : ReadP.val_main_v20 (F := Ideal) a1 = ReadP.val_main_v36 (F := Ideal) a1 := rfl

/-! ## The two layers -/

/-- The first layer before the rectifier, at `(n, c)`: the weighted aggregation of `x · W₁`. -/
theorem v46_at (a0 : TNC) (a1 : TEdges) (a3 : TCC) (a4 : TC) (n : Fin 50000) (c : Fin 256) :
    ReadP.val_main_v46 (F := Ideal) a0 a1 a3 a4 (ix2 n c)
      = Cert.LibGcnAgg.aggAt Cert.Gcn.hN (ReadP.val_main_v41 (F := Ideal)) (Cert.LibMatProd.prod a0 a3)
          (ReadP.val_main_v36 (F := Ideal) a1) (ReadP.val_main_v42 (F := Ideal) a1) (ReadP.val_main_v29 (F := Ideal) a1)
          a4 n c := by
  have hP : ReadP.val_main_v30 (F := Ideal) a0 a3 = Cert.LibMatProd.prod a0 a3 := Cert.LibMatProd.host_prod_eq a0 a3
  refine (Cert.LibGcnAgg.host_agg_at Cert.Gcn.hN scatter_S50000x256_S850000x1_S850000x256_1_0_0_1_wf
    gather_S50000x256_S850000x1_S850000x256_1_0_n_n_0_1_1256_wf (ReadP.val_main_v41 (F := Ideal))
    (ReadP.val_main_v30 (F := Ideal) a0 a3) (ReadP.val_main_v36 (F := Ideal) a1) (ReadP.val_main_v42 (F := Ideal) a1)
    (ReadP.val_main_v29 (F := Ideal) a1) a4
    ![0] rfl bcast_S850000_S850000x1_0 ![0, 1] rfl rfl bcast_S850000x1_S850000x256_0_1
    ![1] rfl bcast_S256_S1x256_1 ![0, 1] rfl rfl bcast_S1x256_S50000x256_0_1 n c).trans ?_
  rw [hP]

/-- The first layer, at `(n, c)`: the weighted aggregation of `x · W₁`, rectified against zero. -/
theorem ref_h1_at (a0 : TNC) (a1 : TEdges) (a3 : TCC) (a4 : TC) (n : Fin 50000) (c : Fin 256) :
    ReadP.val_main_v47 (F := Ideal) a0 a1 a3 a4 (ix2 n c)
      = max (Cert.LibGcnAgg.aggAt Cert.Gcn.hN (ReadP.val_main_v41 (F := Ideal)) (Cert.LibMatProd.prod a0 a3)
          (ReadP.val_main_v36 (F := Ideal) a1) (ReadP.val_main_v42 (F := Ideal) a1) (ReadP.val_main_v29 (F := Ideal) a1)
          a4 n c) (Ideal.ofBits .f32 0x00000000#32) := by
  rw [ReadP.val_main_v47_apply, relu_zero_at, v46_at, Ideal.maximumf_def]

/-- The second layer, at `(n, c)`: the weighted aggregation of `h₁ · W₂`. -/
theorem ref_ht_at (a0 : TNC) (a1 : TEdges) (a3 : TCC) (a4 : TC) (a5 : TCC) (a6 : TC) (n : Fin 50000) (c : Fin 256) :
    ReadP.val_main_v64 (F := Ideal) a0 a1 a3 a4 a5 a6 (ix2 n c)
      = Cert.LibGcnAgg.aggAt Cert.Gcn.hN (ReadP.val_main_v59 (F := Ideal))
          (Cert.LibMatProd.prod (ReadP.val_main_v47 (F := Ideal) a0 a1 a3 a4) a5)
          (ReadP.val_main_v54 (F := Ideal) a1) (ReadP.val_main_v60 (F := Ideal) a1) (ReadP.val_main_v29 (F := Ideal) a1)
          a6 n c := by
  have hP : ReadP.val_main_v48 (F := Ideal) a0 a1 a3 a4 a5
      = Cert.LibMatProd.prod (ReadP.val_main_v47 (F := Ideal) a0 a1 a3 a4) a5 :=
    Cert.LibMatProd.host_prod_eq (ReadP.val_main_v47 (F := Ideal) a0 a1 a3 a4) a5
  refine (Cert.LibGcnAgg.host_agg_at Cert.Gcn.hN scatter_S50000x256_S850000x1_S850000x256_1_0_0_1_wf
    gather_S50000x256_S850000x1_S850000x256_1_0_n_n_0_1_1256_wf (ReadP.val_main_v59 (F := Ideal))
    (ReadP.val_main_v48 (F := Ideal) a0 a1 a3 a4 a5) (ReadP.val_main_v54 (F := Ideal) a1)
    (ReadP.val_main_v60 (F := Ideal) a1) (ReadP.val_main_v29 (F := Ideal) a1) a6
    ![0] rfl bcast_S850000_S850000x1_0 ![0, 1] rfl rfl bcast_S850000x1_S850000x256_0_1
    ![1] rfl bcast_S256_S1x256_1 ![0, 1] rfl rfl bcast_S1x256_S50000x256_0_1 n c).trans ?_
  rw [hP]

/-! ## The gated blend -/

/-- The gate's argument at `(n, c)`: `((h·Gw + bw) + p·Gu) + bu`. -/
theorem logits_at (a0 : TNC) (a1 : TEdges) (a2 : TNC) (a3 : TCC) (a4 : TC) (a5 : TCC) (a6 : TC) (a7 : TCC) (a8 : TC)
    (a9 : TCC) (a10 : TC) (n : Fin 50000) (c : Fin 256) :
    ReadP.val_main_v73 (F := Ideal) a0 a1 a2 a3 a4 a5 a6 a7 a8 a9 a10 (ix2 n c)
      = ((Cert.LibMatProd.prodAt (ReadP.val_main_v64 (F := Ideal) a0 a1 a3 a4 a5 a6) a7 n c + a8 (ix1 c))
          + Cert.LibMatProd.prodAt a2 a9 n c) + a10 (ix1 c) := by
  have h65 : ReadP.val_main_v65 (F := Ideal) a0 a1 a3 a4 a5 a6 a7
      = Cert.LibMatProd.prod (ReadP.val_main_v64 (F := Ideal) a0 a1 a3 a4 a5 a6) a7 :=
    Cert.LibMatProd.host_prod_eq (ReadP.val_main_v64 (F := Ideal) a0 a1 a3 a4 a5 a6) a7
  have h69 : ReadP.val_main_v69 (F := Ideal) a2 a9 = Cert.LibMatProd.prod a2 a9 := Cert.LibMatProd.host_prod_eq a2 a9
  have h67 : ReadP.val_main_v67 (F := Ideal) a8 (ix2 n c) = a8 (ix1 c) := bias_row_at a8 n c
  have h72 : ReadP.val_main_v72 (F := Ideal) a10 (ix2 n c) = a10 (ix1 c) := bias_row_at a10 n c
  rw [ReadP.val_main_v73_apply, ReadP.val_main_v70_apply, ReadP.val_main_v68_apply, h65, h69, h67, h72,
    Cert.LibMatProd.prod_apply, Cert.LibMatProd.prod_apply]
  simp only [Ideal.addf_def]

/-- The gate at `(n, c)`: the quotient `1 / (1 + exp (−logits))` is the logistic function of the logits. -/
theorem gate_at (a0 : TNC) (a1 : TEdges) (a2 : TNC) (a3 : TCC) (a4 : TC) (a5 : TCC) (a6 : TC) (a7 : TCC) (a8 : TC)
    (a9 : TCC) (a10 : TC) (n : Fin 50000) (c : Fin 256) :
    ReadP.val_main_v79 (F := Ideal) a0 a1 a2 a3 a4 a5 a6 a7 a8 a9 a10 (ix2 n c)
      = Cert.Gcn.gateAt (ReadP.val_main_v64 (F := Ideal) a0 a1 a3 a4 a5 a6) a2 a7 (fun j => a8 (ix1 (j 1))) a9
          (fun j => a10 (ix1 (j 1))) n c := by
  rw [ReadP.val_main_v79_apply, ReadP.val_main_v78_apply, ReadP.val_main_cst_13_apply, ReadP.val_main_v77_apply,
    ReadP.val_main_v76_apply, ReadP.val_main_cst_12_apply, ReadP.val_main_v75_apply, ReadP.val_main_v74_apply, logits_at,
    Ideal.hostDivf_def, Ideal.addf_def, Ideal.hostUnary_exp_def, Ideal.hostNegf_def, Ideal.negf_def, Ideal.ofBits_def,
    Cert.LibSigmoid.logistic_spelt]
  rfl

/-- The blend at `(n, c)`: `α · h + (1 − α) · p` with `α` the gate. -/
theorem ref_out_at (a0 : TNC) (a1 : TEdges) (a2 : TNC) (a3 : TCC) (a4 : TC) (a5 : TCC) (a6 : TC) (a7 : TCC) (a8 : TC)
    (a9 : TCC) (a10 : TC) (n : Fin 50000) (c : Fin 256) :
    ReadP.val_main_v84 (F := Ideal) a0 a1 a2 a3 a4 a5 a6 a7 a8 a9 a10 (ix2 n c)
      = Cert.Gcn.blendAt (ReadP.val_main_v64 (F := Ideal) a0 a1 a3 a4 a5 a6) a2 a7 (fun j => a8 (ix1 (j 1))) a9
          (fun j => a10 (ix1 (j 1))) n c := by
  rw [ReadP.val_main_v84_apply, ReadP.val_main_v80_apply, ReadP.val_main_v83_apply, ReadP.val_main_v82_apply,
    ReadP.val_main_v81_apply, ReadP.val_main_cst_14_apply, gate_at]
  unfold Cert.Gcn.blendAt
  simp only [Ideal.addf_def, Ideal.mulf_def, Ideal.subf_def, Ideal.ofBits_def]

/-! ## The edge weights and the node factors -/

/-- The destination column at edge `e` is the raw destination word of `e`. -/
theorem dst_word_at (a1 : TEdges) (e : Fin 850000) :
    ReadP.val_main_v42 (F := Ideal) a1 (ix2 e (0 : Fin 1)) = ReadP.val_main_v6 (F := Ideal) a1 (ix1 e) := by
  rw [ReadP.val_main_v42_apply]
  refine congrArg (ReadP.val_main_v6 (F := Ideal) a1) (funext fun a => ?_)
  match a with
  | ⟨0, _⟩ => rfl

/-- The weights' destination column at edge `e`: the raw destination word, with the node count added where it reads
    negative. -/
theorem dst_wrapped_at (a1 : TEdges) (e : Fin 850000) :
    ReadP.val_main_v27 (F := Ideal) a1 (ix2 e (0 : Fin 1))
      = Scalar.select (IntOp.cmpi .slt (ReadP.val_main_v6 (F := Ideal) a1 (ix1 e)) 0#32)
          (IntOp.addi (ReadP.val_main_v6 (F := Ideal) a1 (ix1 e)) 50000#32) (ReadP.val_main_v6 (F := Ideal) a1 (ix1 e)) := by
  have hi : ReadP.idx_main_v27 (ix2 e (0 : Fin 1)) = ix1 e := funext fun a => by
    match a with
    | ⟨0, _⟩ => rfl
  rw [ReadP.val_main_v27_apply, hi, ReadP.val_main_v26_apply, ReadP.val_main_v23_apply, ReadP.val_main_v25_apply,
    ReadP.val_main_v22_apply, ReadP.val_main_v24_apply, ReadP.val_main_c_4_apply, ReadP.val_main_c_5_apply]

/-- The weight of an edge that lands on node `n` is its source's factor times `n`'s factor. -/
theorem ref_nrm (a1 : TEdges) (e : Fin 850000) (n : Fin 50000)
    (h : (ReadP.val_main_v42 (F := Ideal) a1 (ix2 e (0 : Fin 1))).toInt = (n.val : Int)) :
    ReadP.val_main_v29 (F := Ideal) a1 (ix1 e)
      = ReadP.val_main_v14 (F := Ideal) a1
          (ix1 (Cert.LibGatherFlatRows.rowOf 50000 Cert.Gcn.hN (ReadP.val_main_v36 (F := Ideal) a1 (ix2 e (0 : Fin 1)))))
        * ReadP.val_main_v14 (F := Ideal) a1 (ix1 n) := by
  have h21 : ReadP.val_main_v21 (F := Ideal) a1 (ix1 e)
      = ReadP.val_main_v14 (F := Ideal) a1
          (ix1 (Cert.LibGatherFlatRows.rowOf 50000 Cert.Gcn.hN (ReadP.val_main_v20 (F := Ideal) a1 (ix2 e (0 : Fin 1))))) :=
    Cert.LibSegSum.gather_flat_apply Cert.Gcn.hN gather_S50000_S850000x1_S850000_n_0_n_n_0_1_1_wf
      (ReadP.val_main_v14 (F := Ideal) a1) (ReadP.val_main_v20 (F := Ideal) a1) e
  have h28 : ReadP.val_main_v28 (F := Ideal) a1 (ix1 e)
      = ReadP.val_main_v14 (F := Ideal) a1
          (ix1 (Cert.LibGatherFlatRows.rowOf 50000 Cert.Gcn.hN (ReadP.val_main_v27 (F := Ideal) a1 (ix2 e (0 : Fin 1))))) :=
    Cert.LibSegSum.gather_flat_apply Cert.Gcn.hN gather_S50000_S850000x1_S850000_n_0_n_n_0_1_1_wf
      (ReadP.val_main_v14 (F := Ideal) a1) (ReadP.val_main_v27 (F := Ideal) a1) e
  rw [dst_word_at] at h
  rw [ReadP.val_main_v29_apply, h21, h28, nrm_src_cols_eq, dst_wrapped_at,
    Cert.LibGcnPrescale.row_of_landing Cert.Gcn.hN (by norm_num) _ _ n h, Ideal.mulf_def]

/-- A node's factor is non-negative and finite, whatever its degree is. -/
theorem ref_factor_good (a1 : TEdges) (n : Fin 50000) :
    0 ≤ ReadP.val_main_v14 (F := Ideal) a1 (ix1 n) ∧ ReadP.val_main_v14 (F := Ideal) a1 (ix1 n) ≠ ⊤ := by
  rw [ReadP.val_main_v14_apply, ReadP.val_main_v12_apply, ReadP.val_main_v13_apply, ReadP.val_main_v11_apply,
    ReadP.val_main_cst_1_apply, ReadP.val_main_call0_v1_apply, ReadP.val_main_call0_v0_apply, ReadP.val_main_cst_2_apply,
    Ideal.cmpf_def, Ideal.hostUnary_rsqrt_def, Ideal.ofBits_def]
  exact Cert.Gcn.factor_good (ReadP.val_main_v10 (F := Ideal) a1 (ix1 n)) (Ideal.ofBits .f32 0x00000000#32)
    (Ideal.ofBits .f32 0x00000000#32) Ideal.ofBits_zero_f32 Ideal.ofBits_zero_f32

end Cert.RefSide

end
-- ==== Proof.GcnBridge.lean ====
/-
  The two arrangements of the whole computation agree: the idealized kernel's results, as functions of the argument
  arrays, are the reference's.

  Both programs compute the source column, the destination column and the node factors from the edge list by the same
  host operations, so those are the same arrays. The kernel's buckets are, entry by entry, the unweighted sums of the
  pre-scaled table's rows over the edges that land on the node. The reference's first layer is the weighted
  aggregation of the features' product; by the layer law it is the kernel's post-scaled bucket, so the rectified first
  layers agree. The second layer's tables are then products of equal rows, the law applies again, and the second
  results agree. The gate and the blend are the same expression of the second result and the previous embedding on both
  sides, the reference spelling the logistic function as `1 / (1 + exp(−x))`.
-/
import proofs.«124378_j90486370992781_2_alg».proof.Proof.KernelFold
import proofs.«124378_j90486370992781_2_alg».proof.Proof.RefSide
import Idealize.ShloMosaic.Lib.ValueLayout

noncomputable section

open scoped BigOperators

namespace Cert.Bridge

open Idealize.ShloMosaic Idealize.ShloMosaic.ValueIdx Cert.LibGatherFlatRows Cert.LibMatProd

/-! ## The index columns and the factors are the same arrays -/

theorem srcCol_eq (a1 : Cert.RefSide.TEdges) : Cert.KernelIdeal.Fold.srcCol (Cert.KernelIdeal.Fold.srcWords a1) = Cert.ReferenceIdeal.ReadP.val_main_v36 (F := Ideal) a1 := rfl

theorem dstCol_eq (a1 : Cert.RefSide.TEdges) : Cert.KernelIdeal.Fold.dstCol (Cert.KernelIdeal.Fold.dstWords a1) = Cert.ReferenceIdeal.ReadP.val_main_v42 (F := Ideal) a1 := rfl

theorem factor_eq (a1 : Cert.RefSide.TEdges) : Cert.KernelIdeal.Fold.factor (Cert.KernelIdeal.Fold.dstWords a1) = Cert.ReferenceIdeal.ReadP.val_main_v14 (F := Ideal) a1 := rfl

/-- The factor column at a row is the factor vector at that node. -/
theorem factorCol_at (d6 : IVec Cert.KernelIdeal.S850000 32) (r : Fin 50000) :
    Cert.KernelIdeal.Fold.factorCol d6 (ix2 r (0 : Fin 1)) = Cert.KernelIdeal.Fold.factor d6 (ix1 r) :=
  Cert.LibKeepdims.shapeCast_a_a1_apply (Cert.KernelIdeal.Fold.factor d6) _ r 0

/-- A bias vector cast to a row reads the vector at the column. -/
theorem biasRow_at (b : Cert.RefSide.TC) (c : Fin 256) : (shapeCast Cert.KernelIdeal.S1x256 b Cert.KernelIdeal.Gen.shapeCasts_S256_S1x256 : Cert.Gcn.S1C.Idx → EReal) (ix2 (0 : Fin 1) c) = b (ix1 c) :=
  shapeCast_a_1a_apply b _ 0 c

theorem biasRow_eq (b : Cert.RefSide.TC) : (shapeCast Cert.KernelIdeal.S1x256 b Cert.KernelIdeal.Gen.shapeCasts_S256_S1x256 : Cert.Gcn.S1C.Idx → EReal) = fun j => b (ix1 (j 1)) := by
  funext j
  obtain ⟨u, q, rfl⟩ : ∃ (u : Fin 1) (q : Fin 256), j = ix2 u q := ⟨j 0, j 1, eq_ix2 j⟩
  exact shapeCast_a_1a_apply b _ u q

/-! ## The kernel's buckets at an entry -/

/-- A bucket is the sum, from zero, of the table's rows named by the source column over the edges whose destination
    word is the node. -/
theorem bucket_at (T : FVec Ideal Cert.KernelIdeal.S50000x256 .bf16) (s3 d6 : IVec Cert.KernelIdeal.S850000 32) (n : Fin 50000) (k : Fin 256) :
    Cert.KernelIdeal.Fold.bucket T s3 d6 (ix2 n k) = Cert.Gcn.gatherSumAt T (Cert.KernelIdeal.Fold.srcCol s3) (Cert.KernelIdeal.Fold.dstCol d6) n k := by
  unfold Cert.KernelIdeal.Fold.bucket Cert.Gcn.gatherSumAt
  refine (Cert.LibSegSum.scatterAdd_rows_apply Cert.KernelIdeal.scatter_S50000x256_S850000x1_S850000x256_1_0_0_1.wf _ _ _ n k).trans ?_
  refine congrArg₂ (· + ·) rfl (Finset.sum_congr rfl fun e _ => ?_)
  by_cases h : (Cert.KernelIdeal.Fold.dstCol d6 (ix2 e (0 : Fin 1))).toInt = (n.val : Int)
  · rw [if_pos h, if_pos h]
    exact Cert.LibGatherFlatRows.gather_rows_apply Cert.Gcn.hN Cert.KernelIdeal.gather_S50000x256_S850000x1_S850000x256_1_0_n_n_0_1_1256.wf T (Cert.KernelIdeal.Fold.srcCol s3) e k
  · rw [if_neg h, if_neg h]

section Layers

variable (a0 : Cert.RefSide.TNC) (a1 : Cert.RefSide.TEdges) (a2 : Cert.RefSide.TNC) (a3 : Cert.RefSide.TCC) (a4 : Cert.RefSide.TC) (a5 : Cert.RefSide.TCC) (a6 : Cert.RefSide.TC)
  (a7 : Cert.RefSide.TCC) (a8 : Cert.RefSide.TC) (a9 : Cert.RefSide.TCC) (a10 : Cert.RefSide.TC)

/-- Every node's factor is non-negative and finite. -/
theorem factor_good (r : Fin 50000) : 0 ≤ (Cert.KernelIdeal.Fold.factorCol (Cert.KernelIdeal.Fold.dstWords a1)) (ix2 r (0 : Fin 1)) ∧ (Cert.KernelIdeal.Fold.factorCol (Cert.KernelIdeal.Fold.dstWords a1)) (ix2 r (0 : Fin 1)) ≠ ⊤ := by
  rw [factorCol_at, factor_eq]
  exact Cert.RefSide.ref_factor_good a1 r

/-- A landing edge's weight is the product of its endpoints' factors. -/
theorem weight_eq (e : Fin 850000) (n : Fin 50000) (h : ((Cert.ReferenceIdeal.ReadP.val_main_v42 (F := Ideal) a1) (ix2 e (0 : Fin 1))).toInt = (n.val : Int)) :
    (Cert.ReferenceIdeal.ReadP.val_main_v29 (F := Ideal) a1) (ix1 e) = (Cert.KernelIdeal.Fold.factorCol (Cert.KernelIdeal.Fold.dstWords a1)) (ix2 (rowOf 50000 Cert.Gcn.hN ((Cert.ReferenceIdeal.ReadP.val_main_v36 (F := Ideal) a1) (ix2 e (0 : Fin 1)))) (0 : Fin 1)) * (Cert.KernelIdeal.Fold.factorCol (Cert.KernelIdeal.Fold.dstWords a1)) (ix2 n (0 : Fin 1)) := by
  rw [factorCol_at, factorCol_at, factor_eq]
  exact Cert.RefSide.ref_nrm a1 e n h

/-- The first pre-scaled table is the features' product scaled row by row. -/
theorem table1_at (r : Fin 50000) (c : Fin 256) :
    (Cert.KernelIdeal.Fold.table1 a0 a1 a3) (ix2 r c) = prod a0 a3 (ix2 r c) * (Cert.KernelIdeal.Fold.factorCol (Cert.KernelIdeal.Fold.dstWords a1)) (ix2 r (0 : Fin 1)) := rfl

/-- The post-scaled bucket of a table, in either spelling of the bucket. -/
theorem post_bucket (T : FVec Ideal Cert.KernelIdeal.S50000x256 .bf16) (b : Cert.RefSide.TC) (n : Fin 50000) (c : Fin 256) :
    Cert.Gcn.postAt (Cert.Gcn.gatherSum T (Cert.ReferenceIdeal.ReadP.val_main_v36 (F := Ideal) a1) (Cert.ReferenceIdeal.ReadP.val_main_v42 (F := Ideal) a1)) (shapeCast Cert.KernelIdeal.S1x256 b Cert.KernelIdeal.Gen.shapeCasts_S256_S1x256 : Cert.Gcn.S1C.Idx → EReal) (Cert.KernelIdeal.Fold.factorCol (Cert.KernelIdeal.Fold.dstWords a1)) n c
      = Cert.Gcn.postAt (Cert.KernelIdeal.Fold.bucket T (Cert.KernelIdeal.Fold.srcWords a1) (Cert.KernelIdeal.Fold.dstWords a1)) (shapeCast Cert.KernelIdeal.S1x256 b Cert.KernelIdeal.Gen.shapeCasts_S256_S1x256 : Cert.Gcn.S1C.Idx → EReal) (Cert.KernelIdeal.Fold.factorCol (Cert.KernelIdeal.Fold.dstWords a1)) n c := by
  unfold Cert.Gcn.postAt
  rw [bucket_at, srcCol_eq, dstCol_eq, Cert.Gcn.gatherSum_apply]

/-- The rectified first layers agree. -/
theorem first_eq (r : Fin 50000) (k : Fin 256) :
    Cert.ReferenceIdeal.ReadP.val_main_v47 (F := Ideal) a0 a1 a3 a4 (ix2 r k)
      = Cert.Gcn.reluPost (Cert.KernelIdeal.Fold.bucket (Cert.KernelIdeal.Fold.table1 a0 a1 a3) (Cert.KernelIdeal.Fold.srcWords a1) (Cert.KernelIdeal.Fold.dstWords a1)) (shapeCast Cert.KernelIdeal.S1x256 a4 Cert.KernelIdeal.Gen.shapeCasts_S256_S1x256 : Cert.Gcn.S1C.Idx → EReal) (Cert.KernelIdeal.Fold.factorCol (Cert.KernelIdeal.Fold.dstWords a1)) (ix2 r k) := by
  rw [Cert.RefSide.ref_h1_at, Cert.Gcn.reluPost_apply,
    Cert.Gcn.layer_eq (prod a0 a3) (Cert.KernelIdeal.Fold.table1 a0 a1 a3) (Cert.ReferenceIdeal.ReadP.val_main_v41 (F := Ideal)) (Cert.ReferenceIdeal.ReadP.val_main_v36 (F := Ideal) a1) (Cert.ReferenceIdeal.ReadP.val_main_v42 (F := Ideal) a1) (Cert.ReferenceIdeal.ReadP.val_main_v29 (F := Ideal) a1) a4 (shapeCast Cert.KernelIdeal.S1x256 a4 Cert.KernelIdeal.Gen.shapeCasts_S256_S1x256 : Cert.Gcn.S1C.Idx → EReal) (Cert.KernelIdeal.Fold.factorCol (Cert.KernelIdeal.Fold.dstWords a1))
      Cert.RefSide.zeros_at (table1_at a0 a1 a3) (factor_good a1) (weight_eq a1) (biasRow_at a4) r k,
    post_bucket a1 (Cert.KernelIdeal.Fold.table1 a0 a1 a3) a4 r k]

/-- The second pre-scaled table is the reference's second product scaled row by row. -/
theorem table2_at (r : Fin 50000) (c : Fin 256) :
    (Cert.KernelIdeal.Fold.table2 a0 a1 a3 a4 a5) (ix2 r c) = prod (Cert.ReferenceIdeal.ReadP.val_main_v47 (F := Ideal) a0 a1 a3 a4) a5 (ix2 r c) * (Cert.KernelIdeal.Fold.factorCol (Cert.KernelIdeal.Fold.dstWords a1)) (ix2 r (0 : Fin 1)) := by
  rw [prod_apply]
  show prodAt (Cert.Gcn.reluPost (Cert.KernelIdeal.Fold.bucket (Cert.KernelIdeal.Fold.table1 a0 a1 a3) (Cert.KernelIdeal.Fold.srcWords a1) (Cert.KernelIdeal.Fold.dstWords a1)) (shapeCast Cert.KernelIdeal.S1x256 a4 Cert.KernelIdeal.Gen.shapeCasts_S256_S1x256 : Cert.Gcn.S1C.Idx → EReal) (Cert.KernelIdeal.Fold.factorCol (Cert.KernelIdeal.Fold.dstWords a1))) _ r c * _ = _
  exact congrArg (· * (Cert.KernelIdeal.Fold.factorCol (Cert.KernelIdeal.Fold.dstWords a1)) (ix2 r (0 : Fin 1)))
    (prodAt_congr _ _ _ _ r c r c (fun k => (first_eq a0 a1 a3 a4 r k).symm) (fun k => rfl))

/-- The second results agree. -/
theorem second_eq : Cert.KernelIdeal.Fold.second a0 a1 a3 a4 a5 a6 = Cert.ReferenceIdeal.ReadP.val_main_v64 (F := Ideal) a0 a1 a3 a4 a5 a6 := by
  funext i
  obtain ⟨n, c, rfl⟩ : ∃ (n : Fin 50000) (c : Fin 256), i = ix2 n c := ⟨i 0, i 1, eq_ix2 i⟩
  rw [Cert.RefSide.ref_ht_at, Cert.RefSide.src_cols_eq, Cert.RefSide.dst_cols_eq, Cert.RefSide.zeros_eq,
    Cert.Gcn.layer_eq (prod (Cert.ReferenceIdeal.ReadP.val_main_v47 (F := Ideal) a0 a1 a3 a4) a5) (Cert.KernelIdeal.Fold.table2 a0 a1 a3 a4 a5) (Cert.ReferenceIdeal.ReadP.val_main_v41 (F := Ideal)) (Cert.ReferenceIdeal.ReadP.val_main_v36 (F := Ideal) a1) (Cert.ReferenceIdeal.ReadP.val_main_v42 (F := Ideal) a1) (Cert.ReferenceIdeal.ReadP.val_main_v29 (F := Ideal) a1) a6 (shapeCast Cert.KernelIdeal.S1x256 a6 Cert.KernelIdeal.Gen.shapeCasts_S256_S1x256 : Cert.Gcn.S1C.Idx → EReal) (Cert.KernelIdeal.Fold.factorCol (Cert.KernelIdeal.Fold.dstWords a1))
      Cert.RefSide.zeros_at (table2_at a0 a1 a3 a4 a5) (factor_good a1) (weight_eq a1) (biasRow_at a6) n c,
    post_bucket a1 (Cert.KernelIdeal.Fold.table2 a0 a1 a3 a4 a5) a6 n c]
  rfl

/-- The blended results agree. -/
theorem blended_eq : Cert.KernelIdeal.Fold.blended a0 a1 a2 a3 a4 a5 a6 a7 a8 a9 a10
    = Cert.ReferenceIdeal.ReadP.val_main_v84 (F := Ideal) a0 a1 a2 a3 a4 a5 a6 a7 a8 a9 a10 := by
  funext i
  obtain ⟨n, c, rfl⟩ : ∃ (n : Fin 50000) (c : Fin 256), i = ix2 n c := ⟨i 0, i 1, eq_ix2 i⟩
  rw [Cert.RefSide.ref_out_at, ← second_eq a0 a1 a3 a4 a5 a6, ← biasRow_eq a8, ← biasRow_eq a10]
  rfl

end Layers

end Cert.Bridge

end
-- ==== Proof.lean ====
/-
  The certificate of a two-layer graph convolution with a gated blend: a kernel of three pipelined regions among host
  operations against a plain host reference.

  THE MATHEMATICS. Every node has a factor `d`, the inverse square root of its degree (zero where the degree is not
  positive). The reference weighs each edge's message by `d(source) · d(destination)` and sums the messages into the
  destination's bucket. The kernel scales every row of a layer's table by `d` once before the rows are gathered, sums
  the gathered rows unweighted, and scales each bucket by `d` once after. For an edge that lands on node `n` the
  destination's factor is `d n`, a non-negative finite extended real, and such a factor distributes over any finite sum
  of extended reals; so the two arrangements agree entry by entry with no finiteness of the features used. The
  rectifier, the products with the weight matrices, the biases, the gate `logistic(((h·Gw + bw) + prev·Gu) + bu)` (the
  reference spells the logistic function `1 / (1 + exp(−x))`) and the blend `α·h + (1 − α)·prev` are the same
  expressions on both sides; a change of float format is the identity at the ideal instance.

  HOW THE CLAIMS FOLLOW. Each region's result array is one function of the arrays the region finds, because every
  grid point writes the block of that function at its own 2000 rows and the 25 blocks cover the array. Reading the
  run's buffers back through the host operations to the arguments gives each result of the idealized kernel as a
  function of the arguments; the reference's results are read entry by entry from its operations; the layer law joins
  the two, twice. The frames of the two kernel programs are the generated ones, the reference's frame is its run with
  the results dropped, and the idealization rewrote no operation, so what it preserves is `True`.
-/
import proofs.«124378_j90486370992781_2_alg».proof.Defs
import proofs.«124378_j90486370992781_2_alg».proof.Proof.Gen.Kernel
import proofs.«124378_j90486370992781_2_alg».proof.Proof.Gen.Kernel.Skeleton
import proofs.«124378_j90486370992781_2_alg».proof.Proof.Gen.Kernel.Launch
import proofs.«124378_j90486370992781_2_alg».proof.Proof.Gen.Kernel.Points
import proofs.«124378_j90486370992781_2_alg».proof.Proof.Gen.Kernel.Frame
import proofs.«124378_j90486370992781_2_alg».proof.Proof.Gen.KernelIdeal
import proofs.«124378_j90486370992781_2_alg».proof.Proof.Gen.KernelIdeal.Skeleton
import proofs.«124378_j90486370992781_2_alg».proof.Proof.Gen.KernelIdeal.Launch
import proofs.«124378_j90486370992781_2_alg».proof.Proof.Gen.KernelIdeal.Points
import proofs.«124378_j90486370992781_2_alg».proof.Proof.Gen.KernelIdeal.Frame
import proofs.«124378_j90486370992781_2_alg».proof.Proof.Gen.ReferenceIdeal
import proofs.«124378_j90486370992781_2_alg».proof.Proof.Gen.Pre_finite_inputs
import proofs.«124378_j90486370992781_2_alg».proof.Proof.KernelFold
import proofs.«124378_j90486370992781_2_alg».proof.Proof.GcnBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the arguments both programs end with the blended result and the second layer's result
    at the same functions of the arguments: the kernel's by its fold, the reference's by its run, the two equal by the
    layer law. -/
theorem algebraic : Cert.algebraic_KernelIdeal_ReferenceIdeal := by
  intro m ρ m' ρ' _ hagree
  refine ⟨fun c => Cert.KernelIdeal.Fold.blended (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.Fold.second (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.ends0 m ρ c), (h c).2.1.trans (Cert.KernelIdeal.Fold.ends1 m ρ c), (h c).2.2⟩)
      (Cert.KernelIdeal.Ends.run_ends (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨h0, h1, h2, h3, h4, h5, h6, h7, h8, h9, h10⟩ := hagree c
      rw [Cert.ReferenceIdeal.ReadP.val_main_v84_eq, h0, h1, h2, h3, h4, h5, h6, h7, h8, h9, h10]
      exact (Cert.Bridge.blended_eq _ _ _ _ _ _ _ _ _ _ _).symm
    · obtain ⟨h0, h1, h2, h3, h4, h5, h6, h7, h8, h9, h10⟩ := hagree c
      rw [Cert.ReferenceIdeal.ReadP.val_main_v64_eq, h0, h1, h3, h4, h5, h6]
      exact (Cert.Bridge.second_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
